-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S128x128 : Shape := ⟨2, ![128, 128]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128x128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x16 .f32) (main_arg1 : IVec S2x1600000 32) (main_arg2 : FVec F S16x128 .f32) (main_arg3 : FVec F S16x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S100000x1 : Shape := ⟨2, ![100000, 1]⟩
abbrev S1x128 : Shape := ⟨2, ![1, 128]⟩
abbrev S100000x128 : Shape := ⟨2, ![100000, 128]⟩
abbrev S5000x16 : Shape := ⟨2, ![5000, 16]⟩
abbrev S5000x128 : Shape := ⟨2, ![5000, 128]⟩
abbrev S1600000x128 : Shape := ⟨2, ![1600000, 128]⟩

abbrev nBuf : Space → Nat
  | .hbm => 122
  | .vmem => 36
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x128, .f32⟩
  | .hbm, ⟨3, _⟩ => ⟨S16x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x16, .f32⟩
  | .hbm, ⟨27, _⟩ => ⟨S_, .f32⟩
  | .hbm, ⟨28, _⟩ => ⟨S100000x16, .f32⟩
  | .hbm, ⟨29, _⟩ => ⟨S1600000x1, .i32⟩
  | .hbm, ⟨30, _⟩ => ⟨S100000x16, .f32⟩
  | .hbm, ⟨31, _⟩ => ⟨S_, .f32⟩
  | .hbm, ⟨32, _⟩ => ⟨S1600000x1, .f32⟩
  | .hbm, ⟨33, _⟩ => ⟨S_, .f32⟩
  | .hbm, ⟨34, _⟩ => ⟨S100000x1, .f32⟩
  | .hbm, ⟨35, _⟩ => ⟨S1600000x1, .i32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S100000x16, .f32⟩
  | .hbm, ⟨41, _⟩ => ⟨S100000x16, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S_, .f32⟩
  | .hbm, ⟨58, _⟩ => ⟨S1600000x1, .f32⟩
  | .hbm, ⟨59, _⟩ => ⟨S_, .f32⟩
  | .hbm, ⟨60, _⟩ => ⟨S100000x1, .f32⟩
  | .hbm, ⟨61, _⟩ => ⟨S1600000x1, .i32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S_, .f32⟩
  | .hbm, ⟨84, _⟩ => ⟨S1600000x1, .f32⟩
  | .hbm, ⟨85, _⟩ => ⟨S_, .f32⟩
  | .hbm, ⟨86, _⟩ => ⟨S100000x1, .f32⟩
  | .hbm, ⟨87, _⟩ => ⟨S1600000x1, .i32⟩
  | .hbm, ⟨88, _⟩ => ⟨S100000x1, .f32⟩
  | .hbm, ⟨89, _⟩ => ⟨S_, .f32⟩
  | .hbm, ⟨90, _⟩ => ⟨S100000x1, .f32⟩
  | .hbm, ⟨91, _⟩ => ⟨S100000x1, .f32⟩
  | .hbm, ⟨92, _⟩ => ⟨S100000x128, .f32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x128, .f32⟩
  | .hbm, ⟨105, _⟩ => ⟨S_, .f32⟩
  | .hbm, ⟨106, _⟩ => ⟨S100000x128, .f32⟩
  | .hbm, ⟨107, _⟩ => ⟨S1600000x1, .i32⟩
  | .hbm, ⟨108, _⟩ => ⟨S100000x128, .f32⟩
  | .hbm, ⟨109, _⟩ => ⟨S_, .f32⟩
  | .hbm, ⟨110, _⟩ => ⟨S1600000x1, .f32⟩
  | .hbm, ⟨111, _⟩ => ⟨S_, .f32⟩
  | .hbm, ⟨112, _⟩ => ⟨S100000x1, .f32⟩
  | .hbm, ⟨113, _⟩ => ⟨S1600000x1, .i32⟩
  | .hbm, ⟨114, _⟩ => ⟨S100000x1, .f32⟩
  | .hbm, ⟨115, _⟩ => ⟨S_, .f32⟩
  | .hbm, ⟨116, _⟩ => ⟨S100000x1, .f32⟩
  | .hbm, ⟨117, _⟩ => ⟨S100000x1, .f32⟩
  | .hbm, ⟨118, _⟩ => ⟨S100000x128, .f32⟩
  | .hbm, ⟨119, _⟩ => ⟨S100000x128, .f32⟩
  | .hbm, ⟨120, _⟩ => ⟨S1x128, .f32⟩
  | .hbm, ⟨121, _⟩ => ⟨S100000x128, .f32⟩
  | .local _ .vmem, ⟨0, _⟩ => ⟨S5000x16, .f32⟩
  | .local _ .vmem, ⟨1, _⟩ => ⟨S5000x16, .f32⟩
  | .local _ .vmem, ⟨2, _⟩ => ⟨S5000x16, .f32⟩
  | .local _ .vmem, ⟨3, _⟩ => ⟨S5000x16, .f32⟩
  | .local _ .vmem, ⟨4, _⟩ => ⟨S16x128, .f32⟩
  | .local _ .vmem, ⟨5, _⟩ => ⟨S16x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_cst_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_15 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_c_17 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_19 : Ref sig .tc := ⟨.hbm, 109, rfl⟩
abbrev main_v74 : Ref sig .tc := ⟨.hbm, 110, rfl⟩
abbrev main_cst_20 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_21 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  shapeCasts_S128_S1x128 : S128.ShapeCasts S1x128
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  scatter_S100000x1_S1600000x1_S1600000x1_1_0_0_1_wf : ScatterDims.WF S100000x1 S1600000x1 S1600000x1 [1] [0] [0] 1
  dot_S5000x16_S16x128_S5000x128_1_0_0_1_n_n_wf : DotDims.WF S5000x16 S16x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S100000x16.size a
  hwx0_1 : ∀ i : grid0.Coords, EltTy.bits .f32 = 32 ∨ (Rect.block (s := S100000x16) S5000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v81) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩

abbrev nBuf : Space → Nat
  | .hbm => 147
  | .vmem => 0
  | .smem => 0
  | _ => 0

abbrev hbmTy0_0 (i : Nat) : BufTy := match i % 128 with
  | 0 => ⟨S100000x16, .f32⟩
  | 1 => ⟨S2x1600000, .i32⟩
  | 2 => ⟨S16x128, .f32⟩
  | 3 => ⟨S16x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x16, .f32⟩
  | 27 => ⟨S_, .f32⟩
  | 28 => ⟨S100000x16, .f32⟩
  | 29 => ⟨S1600000x1, .i32⟩
  | 30 => ⟨S100000x16, .f32⟩
  | 31 => ⟨S_, .f32⟩
  | 32 => ⟨S1600000x1, .f32⟩
  | 33 => ⟨S_, .f32⟩
  | 34 => ⟨S100000x1, .f32⟩
  | 35 => ⟨S1600000x1, .i32⟩
  | 36 => ⟨S100000x1, .f32⟩
  | 37 => ⟨S_, .f32⟩
  | 38 => ⟨S100000x1, .f32⟩
  | 39 => ⟨S100000x1, .f32⟩
  | 40 => ⟨S100000x16, .f32⟩
  | 41 => ⟨S100000x16, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S_, .f32⟩
  | 65 => ⟨S1600000x1, .f32⟩
  | 66 => ⟨S_, .f32⟩
  | 67 => ⟨S100000x1, .f32⟩
  | 68 => ⟨S1600000x1, .i32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .f32⟩
  | 93 => ⟨S_, .f32⟩
  | 94 => ⟨S100000x128, .f32⟩
  | 95 => ⟨S1600000x1, .i32⟩
  | 96 => ⟨S100000x128, .f32⟩
  | 97 => ⟨S_, .f32⟩
  | 98 => ⟨S1600000x1, .f32⟩
  | 99 => ⟨S_, .f32⟩
  | 100 => ⟨S100000x1, .f32⟩
  | 101 => ⟨S1600000x1, .i32⟩
  | 102 => ⟨S100000x1, .f32⟩
  | 103 => ⟨S_, .f32⟩
  | 104 => ⟨S100000x1, .f32⟩
  | 105 => ⟨S100000x1, .f32⟩
  | 106 => ⟨S100000x128, .f32⟩
  | 107 => ⟨S100000x128, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S_, .f32⟩
  | 127 => ⟨S100000x128, .f32⟩
  | _ => ⟨S100000x16, .f32⟩

abbrev hbmTy0_1 (i : Nat) : BufTy := match i % 128 with
  | 0 => ⟨S1600000x1, .i32⟩
  | 1 => ⟨S100000x128, .f32⟩
  | 2 => ⟨S_, .f32⟩
  | 3 => ⟨S1600000x1, .f32⟩
  | 4 => ⟨S_, .f32⟩
  | 5 => ⟨S100000x1, .f32⟩
  | 6 => ⟨S1600000x1, .i32⟩
  | 7 => ⟨S100000x1, .f32⟩
  | 8 => ⟨S_, .f32⟩
  | 9 => ⟨S100000x1, .f32⟩
  | 10 => ⟨S100000x1, .f32⟩
  | 11 => ⟨S100000x128, .f32⟩
  | 12 => ⟨S100000x128, .f32⟩
  | 13 => ⟨S100000x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_cst : Ref sig .tc := ⟨.hbm, 81, rfl⟩
abbrev main_call1_v0 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call2_cst : Ref sig .tc := ⟨.hbm, 114, rfl⟩
abbrev main_call2_v0 : Ref sig .tc := ⟨.hbm, 115, rfl⟩
abbrev main_v78 : Ref sig .tc := ⟨.hbm, 116, rfl⟩
abbrev main_c_16 : Ref sig .tc := ⟨.hbm, 117, rfl⟩
abbrev main_v79 : Ref sig .tc := ⟨.hbm, 118, rfl⟩
abbrev main_v80 : Ref sig .tc := ⟨.hbm, 119, rfl⟩
abbrev main_c_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_cst_20 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_21 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  scatter_S100000x1_S1600000x1_S1600000x1_1_0_0_1_wf : ScatterDims.WF S100000x1 S1600000x1 S1600000x1 [1] [0] [0] 1
  dot_S100000x16_S16x128_S100000x128_1_0_0_1_n_n_wf : DotDims.WF S100000x16 S16x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel program's run with its result named.

  The program is four pipelined calls among stretches of host operations.  Every weakly fair execution terminates without a
  fault, the argument arrays end as launched, and the result array ends at the contents the last call's write-backs leave in it:
  the buffer contents at the last segment boundary, read at the result's buffer.  The boundary contents are a fold through the
  program: a host stretch applies its operations to the contents before it, a call replaces its output array by what its
  blocks' write-backs leave and keeps every other buffer.
-/
import proofs.«172585_j14937896255532_1_alg».proof.Proof.Gen.KernelIdeal.Frame

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program over its eight segments, the last thread state read against the final memory at the result's
    buffer as well as at each argument's. -/
theorem run_result : θ_run defs (onTc (τ := τ) (main (F := F))) ⟨m, fun _ => 0, ρ⟩ (fun r => ∀ c : Dev nD,
      r.2.mem ((c.tc : Thread nD τ).loc main_v83) = W8 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v83 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Sage

end
-- ==== Proof.KHost.lean ====
/-
  The host operations between the kernel's calls, as functions.

  From the edge list the program takes its two rows (sources, destinations).  Before each call it computes the neighbourhood
  mean of the current node features: negative source numbers are wrapped once by the node count, the source rows are
  gathered, scatter-added into the destination rows, and divided by max(count, 1), the count being the scatter-add of ones.
  These are the same operations in the reference program, so they are carried as named functions and never opened.
-/
import proofs.«172585_j14937896255532_1_alg».proof.Proof.Gen.KernelIdeal

noncomputable section

namespace Cert.KernelIdeal.Sage

open Cert.KernelIdeal Cert.KernelIdeal.Gen Idealize.ShloMosaic

variable {F : FTy → Type} [FloatOps F]

/-- Row 0 of the edge list: the edges' source nodes. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the edges' destination nodes. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The gather's row numbers: a negative source number has the node count added once; as a column. -/
def gatherRows (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Each node's divisor: the number of edges that end in it, or one if none does. -/
def edgeCount (d : (⟨S1600000, .i32⟩ : BufTy).Contents (Elt F)) : (⟨S100000x1, .f32⟩ : BufTy).Contents (Elt F) :=
  maximumf
    (Host.scatterAdd scatter_S100000x1_S1600000x1_S1600000x1_1_0_0_1
      (broadcastInDim S100000x1 ![] bcast_S_S100000x1 (constant S_ .f32 0x00000000#32))
      (broadcastInDim S1600000x1 ![0] bcast_S1600000_S1600000x1_0 d)
      (broadcastInDim S1600000x1 ![] bcast_S_S1600000x1 (constant S_ .f32 0x3F800000#32)))
    (broadcastInDim S100000x1 ![] bcast_S_S100000x1 (constant S_ .f32 0x3F800000#32))

/-- The neighbourhood mean of an array of 16 features per node, given the two rows of the edge list: every edge's source
    row is gathered, the gathered rows are added into their destination rows, and each row is divided by the larger of its
    edge count and one. -/
def meanRows16 (x : (⟨S100000x16, .f32⟩ : BufTy).Contents (Elt F)) (s d : (⟨S1600000, .i32⟩ : BufTy).Contents (Elt F)) : (⟨S100000x16, .f32⟩ : BufTy).Contents (Elt F) :=
  Host.divf
    (Host.scatterAdd scatter_S100000x16_S1600000x1_S1600000x16_1_0_0_1
      (broadcastInDim S100000x16 ![] bcast_S_S100000x16 (constant S_ .f32 0x00000000#32))
      (broadcastInDim S1600000x1 ![0] bcast_S1600000_S1600000x1_0 d)
      (Host.gather gather_S100000x16_S1600000x1_S1600000x16_1_0_n_n_0_1_116 x (gatherRows s)))
    (broadcastInDim S100000x16 ![0, 1] bcast_S100000x1_S100000x16_0_1 (edgeCount d))

/-- The same from the edge list itself. -/
def mean16 (x : (⟨S100000x16, .f32⟩ : BufTy).Contents (Elt F)) (e : (⟨S2x1600000, .i32⟩ : BufTy).Contents (Elt F)) : (⟨S100000x16, .f32⟩ : BufTy).Contents (Elt F) :=
  meanRows16 x (srcRow e) (dstRow e)

/-- The neighbourhood mean of an array of 128 features per node, given the two rows of the edge list: every edge's source
    row is gathered, the gathered rows are added into their destination rows, and each row is divided by the larger of its
    edge count and one. -/
def meanRows128 (x : (⟨S100000x128, .f32⟩ : BufTy).Contents (Elt F)) (s d : (⟨S1600000, .i32⟩ : BufTy).Contents (Elt F)) : (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 x (gatherRows s)))
    (broadcastInDim S100000x128 ![0, 1] bcast_S100000x1_S100000x128_0_1 (edgeCount d))

/-- The same from the edge list itself. -/
def mean128 (x : (⟨S100000x128, .f32⟩ : BufTy).Contents (Elt F)) (e : (⟨S2x1600000, .i32⟩ : BufTy).Contents (Elt F)) : (⟨S100000x128, .f32⟩ : BufTy).Contents (Elt F) :=
  meanRows128 x (srcRow e) (dstRow e)

end Cert.KernelIdeal.Sage

end
-- ==== Proof.DenseSpec.lean ====
/-
  The layer of a mean-aggregation graph convolution, as one function of whole arrays, index by index, on the extended reals.

  A node's new feature vector is  act( mean · Wl  +  x · Wr  +  b ):  a  is the array of neighbourhood means,  x  the nodes'
  own features,  wl  and  wr  the two weight matrices,  b  the bias row, and  act  either  max(·, 0)  or the identity.
  At row r and column q:

      dense r q = act( (∑ k, a r k * wl k q) + (∑ k, x r k * wr k q) + b q ).

  The network stacks four such layers; the neighbourhood mean of a layer's input is computed by the same host operations in
  both programs, so it enters here as an abstract function of the features and the edge list (A16, A128).
-/
import Idealize.ShloMosaic.PureOps.Ideal.Laws
import Idealize.ShloMosaic.Lib.ValueIdx
import Idealize.ShloMosaic.Lib.Pipeline.Value
import Idealize.ShloMosaic.Lib.ValueLayout

noncomputable section

namespace Cert.Sage

open Idealize.ShloMosaic Idealize.ShloMosaic.ValueIdx

/-- Arrays of extended reals of the shapes the network uses. -/
abbrev X16 := (⟨2, ![100000, 16]⟩ : Shape).Idx → EReal
abbrev X128 := (⟨2, ![100000, 128]⟩ : Shape).Idx → EReal
abbrev W16 := (⟨2, ![16, 128]⟩ : Shape).Idx → EReal
abbrev W128 := (⟨2, ![128, 128]⟩ : Shape).Idx → EReal
abbrev B128 := (⟨1, ![128]⟩ : Shape).Idx → EReal
/-- The edge list: two rows of 32-bit node numbers. -/
abbrev Edges := (⟨2, ![2, 1600000]⟩ : Shape).Idx → BitVec 32

/-- The activation: max(·, 0) when relu, the identity otherwise. -/
def act : Bool → EReal → EReal
  | true, v => max v 0
  | false, v => v

theorem act_true (v : EReal) : act true v = max v 0 := rfl
theorem act_false (v : EReal) : act false v = v := rfl

/-- One layer on 16 input features. -/
def dense16 (relu : Bool) (a x : X16) (wl wr : W16) (b : B128) : X128 := fun i =>
  act relu ((∑ k : Fin 16, a (ix2 (i 0) k) * wl (ix2 k (i 1))) + (∑ k : Fin 16, x (ix2 (i 0) k) * wr (ix2 k (i 1))) + b (ix1 (i 1)))

/-- One layer on 128 input features. -/
def dense128 (relu : Bool) (a x : X128) (wl wr : W128) (b : B128) : X128 := fun i =>
  act relu ((∑ k : Fin 128, a (ix2 (i 0) k) * wl (ix2 k (i 1))) + (∑ k : Fin 128, x (ix2 (i 0) k) * wr (ix2 k (i 1))) + b (ix1 (i 1)))

/-- One entry of a layer on 16 features from a block of 5000 rows: if the block's rows are rows of the whole arrays (row p of the
    block is row r of the array) and the weights and the bias row are the whole arrays', then the block's entry (p, q) is the layer's
    function at (r, q). -/
theorem entry16 (relu : Bool) (v0 v1 : (⟨2, ![5000, 16]⟩ : Shape).Idx → EReal) (wl wr : W16) (b : (⟨2, ![1, 128]⟩ : Shape).Idx → EReal)
    (A X : X16) (WL WR : W16) (Bv : (⟨2, ![1, 128]⟩ : Shape).Idx → EReal) (p : Fin 5000) (q : Fin 128) (r : Fin 100000)
    (h0 : ∀ k : Fin 16, v0 (ix2 p k) = A (ix2 r k)) (h1 : ∀ k : Fin 16, v1 (ix2 p k) = X (ix2 r k))
    (h2 : ∀ k : Fin 16, wl (ix2 k q) = WL (ix2 k q)) (h3 : ∀ k : Fin 16, wr (ix2 k q) = WR (ix2 k q))
    (h4 : b (ix2 (0 : Fin 1) q) = Bv (ix2 (0 : Fin 1) q)) :
    act relu ((∑ k : Fin 16, v0 (ix2 p k) * wl (ix2 k q)) + (∑ k : Fin 16, v1 (ix2 p k) * wr (ix2 k q)) + b (ix2 (0 : Fin 1) q))
      = dense16 relu A X WL WR (fun j => Bv (ix2 (0 : Fin 1) (j 0))) (ix2 r q) := by
  rw [show dense16 relu A X WL WR (fun j => Bv (ix2 (0 : Fin 1) (j 0))) (ix2 r q)
    = act relu ((∑ k : Fin 16, A (ix2 r k) * WL (ix2 k q)) + (∑ k : Fin 16, X (ix2 r k) * WR (ix2 k q)) + Bv (ix2 (0 : Fin 1) q)) from rfl]
  simp only [h0, h1, h2, h3, h4]

/-- One entry of a layer on 128 features from a block of 5000 rows: if the block's rows are rows of the whole arrays (row p of the
    block is row r of the array) and the weights and the bias row are the whole arrays', then the block's entry (p, q) is the layer's
    function at (r, q). -/
theorem entry128 (relu : Bool) (v0 v1 : (⟨2, ![5000, 128]⟩ : Shape).Idx → EReal) (wl wr : W128) (b : (⟨2, ![1, 128]⟩ : Shape).Idx → EReal)
    (A X : X128) (WL WR : W128) (Bv : (⟨2, ![1, 128]⟩ : Shape).Idx → EReal) (p : Fin 5000) (q : Fin 128) (r : Fin 100000)
    (h0 : ∀ k : Fin 128, v0 (ix2 p k) = A (ix2 r k)) (h1 : ∀ k : Fin 128, v1 (ix2 p k) = X (ix2 r k))
    (h2 : ∀ k : Fin 128, wl (ix2 k q) = WL (ix2 k q)) (h3 : ∀ k : Fin 128, wr (ix2 k q) = WR (ix2 k q))
    (h4 : b (ix2 (0 : Fin 1) q) = Bv (ix2 (0 : Fin 1) q)) :
    act relu ((∑ k : Fin 128, v0 (ix2 p k) * wl (ix2 k q)) + (∑ k : Fin 128, v1 (ix2 p k) * wr (ix2 k q)) + b (ix2 (0 : Fin 1) q))
      = dense128 relu A X WL WR (fun j => Bv (ix2 (0 : Fin 1) (j 0))) (ix2 r q) := by
  rw [show dense128 relu A X WL WR (fun j => Bv (ix2 (0 : Fin 1) (j 0))) (ix2 r q)
    = act relu ((∑ k : Fin 128, A (ix2 r k) * WL (ix2 k q)) + (∑ k : Fin 128, X (ix2 r k) * WR (ix2 k q)) + Bv (ix2 (0 : Fin 1) q)) from rfl]
  simp only [h0, h1, h2, h3, h4]

/-- The four layers stacked: ReLU after the first three, none after the last; every layer's neighbourhood mean taken of that
    layer's input over the same edge list. -/
def net (A16 : X16 → Edges → X16) (A128 : X128 → Edges → X128) (x : X16) (e : Edges)
    (wl1 wr1 : W16) (b1 : B128) (wl2 wr2 : W128) (b2 : B128) (wl3 wr3 : W128) (b3 : B128) (wl4 wr4 : W128) (b4 : B128) : X128 :=
  let h1 := dense16 true (A16 x e) x wl1 wr1 b1
  let h2 := dense128 true (A128 h1 e) h1 wl2 wr2 b2
  let h3 := dense128 true (A128 h2 e) h2 wl3 wr3 b3
  dense128 false (A128 h3 e) h3 wl4 wr4 b4

end Cert.Sage

end
-- ==== Proof.KPayload.lean ====
/-
  The arithmetic of the dense kernel's body, read at one entry of the block it stores.

  Each of the four calls loads a block of 5000 rows of the neighbourhood means and of the node features, the two weight
  matrices whole and the bias row, rounds the four matrices to bf16 (the identity on the extended reals), multiplies,
  adds the two products and the bias row, and (in the first three calls) takes the maximum with zero.
-/
import proofs.«172585_j14937896255532_1_alg».proof.Proof.Gen.KernelIdeal.Skeleton
import proofs.«172585_j14937896255532_1_alg».proof.Proof.DenseSpec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Sage

open Cert.KernelIdeal Cert.KernelIdeal.Gen Idealize.ShloMosaic Idealize.ShloMosaic.ValueIdx

theorem d16_lhs0 (i : S5000x128.Idx) (q : dot_S5000x16_S16x128_S5000x128_1_0_0_1_n_n.contr.Idx) : (dot_S5000x16_S16x128_S5000x128_1_0_0_1_n_n.lhsIdx i q 0).val = (i 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl
theorem d16_lhs1 (i : S5000x128.Idx) (q : dot_S5000x16_S16x128_S5000x128_1_0_0_1_n_n.contr.Idx) : (dot_S5000x16_S16x128_S5000x128_1_0_0_1_n_n.lhsIdx i q 1).val = (q ⟨0, by decide⟩).val :=
  dot_S5000x16_S16x128_S5000x128_1_0_0_1_n_n.lhsIdx_val_of_single rfl i q
theorem d16_rhs0 (i : S5000x128.Idx) (q : dot_S5000x16_S16x128_S5000x128_1_0_0_1_n_n.contr.Idx) : (dot_S5000x16_S16x128_S5000x128_1_0_0_1_n_n.rhsIdx i q 0).val = (q ⟨0, by decide⟩).val :=
  dot_S5000x16_S16x128_S5000x128_1_0_0_1_n_n.rhsIdx_val_of_single rfl i q
theorem d16_rhs1 (i : S5000x128.Idx) (q : dot_S5000x16_S16x128_S5000x128_1_0_0_1_n_n.contr.Idx) : (dot_S5000x16_S16x128_S5000x128_1_0_0_1_n_n.rhsIdx i q 1).val = (i 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

/-- The block product at row p, column q: the sum over the 16 contracted positions of the products of the two operands'
    entries (the contraction index of the dot is its one coordinate). -/
theorem blockDot16 (l : FVec Ideal S5000x16 .bf16) (r : FVec Ideal S16x128 .bf16) (p : Fin 5000) (q : Fin 128) :
    matmul dot_S5000x16_S16x128_S5000x128_1_0_0_1_n_n none l r (constant S5000x128 .f32 0x00000000#32) (ix2 p q)
      = ∑ k : Fin 16, l (ix2 p k) * r (ix2 k q) := by
  simp only [matmul]
  rw [Ideal.matmul_constant_zero_apply, ← Equiv.sum_comp (ValueIdx.contrEquiv1 dot_S5000x16_S16x128_S5000x128_1_0_0_1_n_n 16 rfl rfl).symm]
  refine Finset.sum_congr rfl fun k _ => ?_
  have hk := ValueIdx.contrEquiv1_symm_val dot_S5000x16_S16x128_S5000x128_1_0_0_1_n_n 16 rfl rfl k
  have el : dot_S5000x16_S16x128_S5000x128_1_0_0_1_n_n.lhsIdx (ix2 p q) ((ValueIdx.contrEquiv1 dot_S5000x16_S16x128_S5000x128_1_0_0_1_n_n 16 rfl rfl).symm k) = ix2 p k := funext fun a => Fin.ext (by
    match a with
    | ⟨0, _⟩ => exact d16_lhs0 _ _
    | ⟨1, _⟩ => exact (d16_lhs1 _ _).trans hk)
  have er : dot_S5000x16_S16x128_S5000x128_1_0_0_1_n_n.rhsIdx (ix2 p q) ((ValueIdx.contrEquiv1 dot_S5000x16_S16x128_S5000x128_1_0_0_1_n_n 16 rfl rfl).symm k) = ix2 k q := funext fun a => Fin.ext (by
    match a with
    | ⟨0, _⟩ => exact (d16_rhs0 _ _).trans hk
    | ⟨1, _⟩ => exact d16_rhs1 _ _)
  rw [el, er]

theorem d128_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d128_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem d128_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem d128_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at row p, column q: the sum over the 128 contracted positions of the products of the two operands'
    entries (the contraction index of the dot is its one coordinate). -/
theorem blockDot128 (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact d128_lhs0 _ _
    | ⟨1, _⟩ => exact (d128_lhs1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (d128_rhs0 _ _).trans hk
    | ⟨1, _⟩ => exact d128_rhs1 _ _)
  rw [el, er]

/-- The bias row broadcast down the block's rows: at row p, column q it is the row's entry q. -/
theorem biasRow (b : FVec Ideal S1x128 .f32) (p : Fin 5000) (q : Fin 128) :
    broadcastTo S5000x128 b broadcasts_S1x128_S5000x128 (ix2 p q) = b (ix2 0 q) :=
  broadcastTo_1b_ab_apply b broadcasts_S1x128_S5000x128 p q

/-- What the body of call 0 stores at row p, column q of its block: max(·, 0) of the two block products plus the bias row
    (a change of float format is the identity on the extended reals). -/
theorem pay0_apply (v0 v1 : Vec Ideal S5000x16 .f32) (wl wr : Vec Ideal S16x128 .f32) (b : Vec Ideal S1x128 .f32) (p : Fin 5000) (q : Fin 128) :
    k0_pay1 (F := Ideal) v0 v1 wl wr b (ix2 p q)
      = Cert.Sage.act true ((∑ k : Fin 16, v0 (ix2 p k) * wl (ix2 k q)) + (∑ k : Fin 16, v1 (ix2 p k) * wr (ix2 k q)) + b (ix2 (0 : Fin 1) q)) := by
  unfold k0_pay1
  simp only [shapeCast_self]
  show max (_ + _ + _) (Ideal.ofBits .f32 0x00000000#32) = _
  rw [Ideal.ofBits_zero_f32, Cert.Sage.act_true]
  refine congrArg (max · 0) ?_
  refine congrArg₂ (· + ·) (congrArg₂ (· + ·) ?_ ?_) ?_
  · exact blockDot16 _ _ p q
  · exact blockDot16 _ _ p q
  · exact biasRow _ p q

/-- What the body of call 1 stores at row p, column q of its block: max(·, 0) of the two block products plus the bias row
    (a change of float format is the identity on the extended reals). -/
theorem pay1_apply (v0 v1 : Vec Ideal S5000x128 .f32) (wl wr : Vec Ideal S128x128 .f32) (b : Vec Ideal S1x128 .f32) (p : Fin 5000) (q : Fin 128) :
    k1_pay1 (F := Ideal) v0 v1 wl wr b (ix2 p q)
      = Cert.Sage.act true ((∑ k : Fin 128, v0 (ix2 p k) * wl (ix2 k q)) + (∑ k : Fin 128, v1 (ix2 p k) * wr (ix2 k q)) + b (ix2 (0 : Fin 1) q)) := by
  unfold k1_pay1
  simp only [shapeCast_self]
  show max (_ + _ + _) (Ideal.ofBits .f32 0x00000000#32) = _
  rw [Ideal.ofBits_zero_f32, Cert.Sage.act_true]
  refine congrArg (max · 0) ?_
  refine congrArg₂ (· + ·) (congrArg₂ (· + ·) ?_ ?_) ?_
  · exact blockDot128 _ _ p q
  · exact blockDot128 _ _ p q
  · exact biasRow _ p q

/-- What the body of call 2 stores at row p, column q of its block: max(·, 0) of the two block products plus the bias row
    (a change of float format is the identity on the extended reals). -/
theorem pay2_apply (v0 v1 : Vec Ideal S5000x128 .f32) (wl wr : Vec Ideal S128x128 .f32) (b : Vec Ideal S1x128 .f32) (p : Fin 5000) (q : Fin 128) :
    k2_pay1 (F := Ideal) v0 v1 wl wr b (ix2 p q)
      = Cert.Sage.act true ((∑ k : Fin 128, v0 (ix2 p k) * wl (ix2 k q)) + (∑ k : Fin 128, v1 (ix2 p k) * wr (ix2 k q)) + b (ix2 (0 : Fin 1) q)) := by
  unfold k2_pay1
  simp only [shapeCast_self]
  show max (_ + _ + _) (Ideal.ofBits .f32 0x00000000#32) = _
  rw [Ideal.ofBits_zero_f32, Cert.Sage.act_true]
  refine congrArg (max · 0) ?_
  refine congrArg₂ (· + ·) (congrArg₂ (· + ·) ?_ ?_) ?_
  · exact blockDot128 _ _ p q
  · exact blockDot128 _ _ p q
  · exact biasRow _ p q

/-- What the body of call 3 stores at row p, column q of its block: the two block products plus the bias row
    (a change of float format is the identity on the extended reals). -/
theorem pay3_apply (v0 v1 : Vec Ideal S5000x128 .f32) (wl wr : Vec Ideal S128x128 .f32) (b : Vec Ideal S1x128 .f32) (p : Fin 5000) (q : Fin 128) :
    k3_pay1 (F := Ideal) v0 v1 wl wr b (ix2 p q)
      = Cert.Sage.act false ((∑ k : Fin 128, v0 (ix2 p k) * wl (ix2 k q)) + (∑ k : Fin 128, v1 (ix2 p k) * wr (ix2 k q)) + b (ix2 (0 : Fin 1) q)) := by
  unfold k3_pay1
  simp only [shapeCast_self]
  rw [Cert.Sage.act_false]
  show _ + _ + _ = _
  refine congrArg₂ (· + ·) (congrArg₂ (· + ·) ?_ ?_) ?_
  · exact blockDot128 _ _ p q
  · exact blockDot128 _ _ p q
  · exact biasRow _ p q

end Cert.KernelIdeal.Sage

end
-- ==== Proof.KRegion0.lean ====
/-
  Call 0 of the dense kernel, as one function of whole arrays.

  The call walks 20 grid points; point t loads rows 5000 t … 5000 t + 4999 of the neighbourhood means and of the node features,
  the two weight matrices and the bias row whole, and writes rows 5000 t … 5000 t + 4999 of the output.  So every entry of the
  output array is written by exactly the point its row falls in, and the array ends at the layer's function of the arrays the
  call was entered with, whatever those are.
-/
import proofs.«172585_j14937896255532_1_alg».proof.Proof.Gen.KernelIdeal.Frame
import proofs.«172585_j14937896255532_1_alg».proof.Proof.KPayload
import proofs.«172585_j14937896255532_1_alg».proof.Proof.DenseSpec

set_option maxRecDepth 16384

noncomputable section

namespace Cert.KernelIdeal.Sage

open Cert.KernelIdeal Cert.KernelIdeal.Gen Idealize.ShloMosaic Idealize.ShloMosaic.TcCoe Idealize.SL.Sem Idealize.ShloMosaic.ValueIdx
open Idealize.ShloMosaic.Pipeline (Dat)
open Cert.Sage

variable (V : (c : Dev nD) → (b : Ref sig .tc) → Buf (Elt Ideal) ((c : Thread nD τ).loc b))

theorem hz0 : (![0, 0] : Fin 2 → Nat) = fun _ => 0 := funext fun a => by fin_cases a <;> rfl

/-- The block index maps, decided once over the 20 grid points: the row-blocked windows (means, features, output) sit at
    block (t, 0), the whole-array windows (the weights and the bias row) at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 20 :=
  (by decide +kernel : ∀ t : Fin grid0.N, _)

/-- The block of neighbourhood means at point t is rows 5000 t … of that array. -/
theorem read0_0 (c : Dev nD) (t : Fin cfg0.N) (p : Fin 5000) (k : Fin 16) (hr : t.val * 5000 + p.val < 100000) :
    iblk0 V c 0 t (ix2 p k) = (V c main_v21 : S100000x16.Idx → EReal) (ix2 ⟨t.val * 5000 + p.val, hr⟩ k) := by
  obtain ⟨e0, e1, -⟩ := idx0 t
  unfold iblk0
  rw [View.read_apply]
  refine congrArg (V c main_v21 : S100000x16.Idx → EReal) (funext fun a => Fin.ext ?_)
  match a with
  | ⟨0, _⟩ => show win0_0.index t 0 * 5000 + 1 * p.val = t.val * 5000 + p.val; rw [e0]; omega
  | ⟨1, _⟩ => show win0_0.index t 1 * 16 + 1 * k.val = k.val; rw [e1]; omega

/-- The block of node features at point t is rows 5000 t … of that array. -/
theorem read0_1 (c : Dev nD) (t : Fin cfg0.N) (p : Fin 5000) (k : Fin 16) (hr : t.val * 5000 + p.val < 100000) :
    iblk0 V c 1 t (ix2 p k) = (V c main_arg0 : S100000x16.Idx → EReal) (ix2 ⟨t.val * 5000 + p.val, hr⟩ k) := by
  obtain ⟨-, -, e0, e1, -⟩ := idx0 t
  unfold iblk0
  rw [View.read_apply]
  refine congrArg (V c main_arg0 : S100000x16.Idx → EReal) (funext fun a => Fin.ext ?_)
  match a with
  | ⟨0, _⟩ => show win0_1.index t 0 * 5000 + 1 * p.val = t.val * 5000 + p.val; rw [e0]; omega
  | ⟨1, _⟩ => show win0_1.index t 1 * 16 + 1 * k.val = k.val; rw [e1]; omega

/-- The first weight matrix is loaded whole at every point. -/
theorem read0_2 (c : Dev nD) (t : Fin cfg0.N) (k : Fin 16) (q : Fin 128) :
    iblk0 V c 2 t (ix2 k q) = (V c main_arg2 : S16x128.Idx → EReal) (ix2 k q) := by
  obtain ⟨-, -, -, -, e0, e1, -⟩ := idx0 t
  unfold iblk0
  rw [View.read_apply]
  refine congrArg (V c main_arg2 : S16x128.Idx → EReal) (funext fun a => Fin.ext ?_)
  match a with
  | ⟨0, _⟩ => show win0_2.index t 0 * 16 + 1 * k.val = k.val; rw [e0]; omega
  | ⟨1, _⟩ => show win0_2.index t 1 * 128 + 1 * q.val = q.val; rw [e1]; omega

/-- The second weight matrix is loaded whole at every point. -/
theorem read0_3 (c : Dev nD) (t : Fin cfg0.N) (k : Fin 16) (q : Fin 128) :
    iblk0 V c 3 t (ix2 k q) = (V c main_arg3 : S16x128.Idx → EReal) (ix2 k q) := by
  obtain ⟨-, -, -, -, -, -, e0, e1, -⟩ := idx0 t
  unfold iblk0
  rw [View.read_apply]
  refine congrArg (V c main_arg3 : S16x128.Idx → EReal) (funext fun a => Fin.ext ?_)
  match a with
  | ⟨0, _⟩ => show win0_3.index t 0 * 16 + 1 * k.val = k.val; rw [e0]; omega
  | ⟨1, _⟩ => show win0_3.index t 1 * 128 + 1 * q.val = q.val; rw [e1]; omega

/-- The bias row is loaded whole at every point. -/
theorem read0_4 (c : Dev nD) (t : Fin cfg0.N) (q : Fin 128) :
    iblk0 V c 4 t (ix2 (0 : Fin 1) q) = (V c main_v22 : S1x128.Idx → EReal) (ix2 (0 : Fin 1) q) := by
  obtain ⟨-, -, -, -, -, -, -, -, e0, e1, -⟩ := idx0 t
  unfold iblk0
  rw [View.read_apply]
  refine congrArg (V c main_v22 : S1x128.Idx → EReal) (funext fun a => Fin.ext ?_)
  match a with
  | ⟨0, _⟩ => show win0_4.index t 0 * 1 + 1 * 0 = 0; rw [e0]
  | ⟨1, _⟩ => show win0_4.index t 1 * 128 + 1 * q.val = q.val; rw [e1]; omega

/-- The layer's function of the arrays the call is entered with. -/
abbrev layer0 (c : Dev nD) : X128 :=
  dense16 true (V c main_v21 : X16) (V c main_arg0 : X16) (V c main_arg2 : W16) (V c main_arg3 : W16)
    (fun j => (V c main_v22 : S1x128.Idx → EReal) (ix2 (0 : Fin 1) (j 0)))

/-- What point t writes back is block t of the layer's function. -/
theorem flushed0 (c : Dev nD) (t : Fin cfg0.N) :
    (dat0 V c).flushed 5 t = ((cfg0.win 5).blk t).view.read (Elt Ideal) (layer0 V c) := by
  obtain ⟨-, -, -, -, -, -, -, -, -, -, e10, e11, ht⟩ := idx0 t
  show (cfg0.win 5).cut (grid0.coords t) ((dat0 V c).after 5 t) = _
  rw [after0_5]
  unfold out0_5
  rw [View.canon_unit_zero hz0]
  simp only [View.ld_unit_zero (S := S5000x16) hz0, View.ld_unit_zero (S := S16x128) hz0, View.ld_unit_zero (S := S1x128) hz0]
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  refine (pay0_apply _ _ _ _ _ p q).trans ?_
  rw [View.read_apply]
  have hemb : ((cfg0.win 5).blk t).view.emb (ix2 p q) = (ix2 ⟨t.val * 5000 + p.val, hr⟩ q : S100000x128.Idx) :=
    funext fun a => Fin.ext (by
      match a with
      | ⟨0, _⟩ => show win0_5.index t 0 * 5000 + 1 * p.val = t.val * 5000 + p.val; rw [e10]; omega
      | ⟨1, _⟩ => show win0_5.index t 1 * 128 + 1 * q.val = q.val; rw [e11]; omega)
  rw [hemb]
  exact entry16 true _ _ _ _ _ (V c main_v21 : X16) (V c main_arg0 : X16) (V c main_arg2 : W16) (V c main_arg3 : W16)
    (V c main_v22 : S1x128.Idx → EReal) p q ⟨t.val * 5000 + p.val, hr⟩
    (fun k => read0_0 V c t p k hr) (fun k => read0_1 V c t p k hr) (fun k => read0_2 V c t k q) (fun k => read0_3 V c t k q)
    (read0_4 V c t q)

/-- An index of the output array is in point t's block iff its row is among the block's 5000 and its column among the 128. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- The output array after the call: the layer's function of the arrays the call was entered with (row r is written by
    point r / 5000, and the 20 blocks of 5000 rows cover the 100000 rows). -/
theorem final0 (c : Dev nD) : (dat0 V c).arrAt 5 cfg0.N = layer0 V c :=
  (dat0 V c).arrAt_eq_of_cover 5 (layer0 V c) (fun t _ => flushed0 V c t) fun i => by
    have hi0 : (i 0).val < 100000 := (i 0).isLt
    have hi1 : (i 1).val < 128 := (i 1).isLt
    have hN : grid0.N = 20 := N_0
    have hlt : (i 0).val / 5000 < cfg0.N := by show _ < grid0.N; rw [hN]; omega
    obtain ⟨-, -, -, -, -, -, -, -, -, -, e10, e11, -⟩ := idx0 ⟨(i 0).val / 5000, hlt⟩
    refine ⟨⟨(i 0).val / 5000, hlt⟩, flush0_5 _, ?_⟩
    rw [mem_blk0]
    intro a
    match a with
    | ⟨0, _⟩ =>
      show win0_5.index ⟨(i 0).val / 5000, hlt⟩ 0 * 5000 ≤ (i 0).val ∧ (i 0).val < win0_5.index ⟨(i 0).val / 5000, hlt⟩ 0 * 5000 + 5000
      rw [e10]; show (i 0).val / 5000 * 5000 ≤ (i 0).val ∧ (i 0).val < (i 0).val / 5000 * 5000 + 5000; omega
    | ⟨1, _⟩ =>
      show win0_5.index ⟨(i 0).val / 5000, hlt⟩ 1 * 128 ≤ (i 1).val ∧ (i 1).val < win0_5.index ⟨(i 0).val / 5000, hlt⟩ 1 * 128 + 128
      rw [e11]; omega

/-- The same with the entry arrays named: when the call is entered with means a, features x, weights wl and wr, and the bias
    vector b laid out as a row. -/
theorem layer0_eq (c : Dev nD) (a x : X16) (wl wr : W16) (b : B128)
    (ha : (V c main_v21 : X16) = a) (hx : (V c main_arg0 : X16) = x) (hwl : (V c main_arg2 : W16) = wl) (hwr : (V c main_arg3 : W16) = wr)
    (hb : (V c main_v22 : S1x128.Idx → EReal) = shapeCast S1x128 b shapeCasts_S128_S1x128) :
    layer0 V c = dense16 true a x wl wr b := by
  subst ha hx hwl hwr
  show dense16 true _ _ _ _ _ = dense16 true _ _ _ _ _
  refine congrArg (dense16 true _ _ _ _) (funext fun j => ?_)
  rw [hb]
  exact (shapeCast_a_1a_apply b shapeCasts_S128_S1x128 0 (j 0)).trans (congrArg b (eq_ix1 j).symm)

end Cert.KernelIdeal.Sage

end
-- ==== Proof.KRegion1.lean ====
/-
  Call 1 of the dense kernel, as one function of whole arrays.

  The call walks 20 grid points; point t loads rows 5000 t … 5000 t + 4999 of the neighbourhood means and of the node features,
  the two weight matrices and the bias row whole, and writes rows 5000 t … 5000 t + 4999 of the output.  So every entry of the
  output array is written by exactly the point its row falls in, and the array ends at the layer's function of the arrays the
  call was entered with, whatever those are.
-/
import proofs.«172585_j14937896255532_1_alg».proof.Proof.Gen.KernelIdeal.Frame
import proofs.«172585_j14937896255532_1_alg».proof.Proof.KPayload
import proofs.«172585_j14937896255532_1_alg».proof.Proof.DenseSpec

set_option maxRecDepth 16384

noncomputable section

namespace Cert.KernelIdeal.Sage

open Cert.KernelIdeal Cert.KernelIdeal.Gen Idealize.ShloMosaic Idealize.ShloMosaic.TcCoe Idealize.SL.Sem Idealize.ShloMosaic.ValueIdx
open Idealize.ShloMosaic.Pipeline (Dat)
open Cert.Sage

variable (V : (c : Dev nD) → (b : Ref sig .tc) → Buf (Elt Ideal) ((c : Thread nD τ).loc b))

theorem hz1 : (![0, 0] : Fin 2 → Nat) = fun _ => 0 := funext fun a => by fin_cases a <;> rfl

/-- The block index maps, decided once over the 20 grid points: the row-blocked windows (means, features, output) sit at
    block (t, 0), the whole-array windows (the weights and the bias row) at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 20 :=
  (by decide +kernel : ∀ t : Fin grid1.N, _)

/-- The block of neighbourhood means at point t is rows 5000 t … of that array. -/
theorem read1_0 (c : Dev nD) (t : Fin cfg1.N) (p : Fin 5000) (k : Fin 128) (hr : t.val * 5000 + p.val < 100000) :
    iblk1 V c 0 t (ix2 p k) = (V c main_v41 : S100000x128.Idx → EReal) (ix2 ⟨t.val * 5000 + p.val, hr⟩ k) := by
  obtain ⟨e0, e1, -⟩ := idx1 t
  unfold iblk1
  rw [View.read_apply]
  refine congrArg (V c main_v41 : S100000x128.Idx → EReal) (funext fun a => Fin.ext ?_)
  match a with
  | ⟨0, _⟩ => show win1_0.index t 0 * 5000 + 1 * p.val = t.val * 5000 + p.val; rw [e0]; omega
  | ⟨1, _⟩ => show win1_0.index t 1 * 128 + 1 * k.val = k.val; rw [e1]; omega

/-- The block of node features at point t is rows 5000 t … of that array. -/
theorem read1_1 (c : Dev nD) (t : Fin cfg1.N) (p : Fin 5000) (k : Fin 128) (hr : t.val * 5000 + p.val < 100000) :
    iblk1 V c 1 t (ix2 p k) = (V c main_v23 : S100000x128.Idx → EReal) (ix2 ⟨t.val * 5000 + p.val, hr⟩ k) := by
  obtain ⟨-, -, e0, e1, -⟩ := idx1 t
  unfold iblk1
  rw [View.read_apply]
  refine congrArg (V c main_v23 : S100000x128.Idx → EReal) (funext fun a => Fin.ext ?_)
  match a with
  | ⟨0, _⟩ => show win1_1.index t 0 * 5000 + 1 * p.val = t.val * 5000 + p.val; rw [e0]; omega
  | ⟨1, _⟩ => show win1_1.index t 1 * 128 + 1 * k.val = k.val; rw [e1]; omega

/-- The first weight matrix is loaded whole at every point. -/
theorem read1_2 (c : Dev nD) (t : Fin cfg1.N) (k : Fin 128) (q : Fin 128) :
    iblk1 V c 2 t (ix2 k q) = (V c main_arg5 : S128x128.Idx → EReal) (ix2 k q) := by
  obtain ⟨-, -, -, -, e0, e1, -⟩ := idx1 t
  unfold iblk1
  rw [View.read_apply]
  refine congrArg (V c main_arg5 : S128x128.Idx → EReal) (funext fun a => Fin.ext ?_)
  match a with
  | ⟨0, _⟩ => show win1_2.index t 0 * 128 + 1 * k.val = k.val; rw [e0]; omega
  | ⟨1, _⟩ => show win1_2.index t 1 * 128 + 1 * q.val = q.val; rw [e1]; omega

/-- The second weight matrix is loaded whole at every point. -/
theorem read1_3 (c : Dev nD) (t : Fin cfg1.N) (k : Fin 128) (q : Fin 128) :
    iblk1 V c 3 t (ix2 k q) = (V c main_arg6 : S128x128.Idx → EReal) (ix2 k q) := by
  obtain ⟨-, -, -, -, -, -, e0, e1, -⟩ := idx1 t
  unfold iblk1
  rw [View.read_apply]
  refine congrArg (V c main_arg6 : S128x128.Idx → EReal) (funext fun a => Fin.ext ?_)
  match a with
  | ⟨0, _⟩ => show win1_3.index t 0 * 128 + 1 * k.val = k.val; rw [e0]; omega
  | ⟨1, _⟩ => show win1_3.index t 1 * 128 + 1 * q.val = q.val; rw [e1]; omega

/-- The bias row is loaded whole at every point. -/
theorem read1_4 (c : Dev nD) (t : Fin cfg1.N) (q : Fin 128) :
    iblk1 V c 4 t (ix2 (0 : Fin 1) q) = (V c main_v42 : S1x128.Idx → EReal) (ix2 (0 : Fin 1) q) := by
  obtain ⟨-, -, -, -, -, -, -, -, e0, e1, -⟩ := idx1 t
  unfold iblk1
  rw [View.read_apply]
  refine congrArg (V c main_v42 : S1x128.Idx → EReal) (funext fun a => Fin.ext ?_)
  match a with
  | ⟨0, _⟩ => show win1_4.index t 0 * 1 + 1 * 0 = 0; rw [e0]
  | ⟨1, _⟩ => show win1_4.index t 1 * 128 + 1 * q.val = q.val; rw [e1]; omega

/-- The layer's function of the arrays the call is entered with. -/
abbrev layer1 (c : Dev nD) : X128 :=
  dense128 true (V c main_v41 : X128) (V c main_v23 : X128) (V c main_arg5 : W128) (V c main_arg6 : W128)
    (fun j => (V c main_v42 : S1x128.Idx → EReal) (ix2 (0 : Fin 1) (j 0)))

/-- What point t writes back is block t of the layer's function. -/
theorem flushed1 (c : Dev nD) (t : Fin cfg1.N) :
    (dat1 V c).flushed 5 t = ((cfg1.win 5).blk t).view.read (Elt Ideal) (layer1 V c) := by
  obtain ⟨-, -, -, -, -, -, -, -, -, -, e10, e11, ht⟩ := idx1 t
  show (cfg1.win 5).cut (grid1.coords t) ((dat1 V c).after 5 t) = _
  rw [after1_5]
  unfold out1_5
  rw [View.canon_unit_zero hz1]
  simp only [View.ld_unit_zero (S := S5000x128) hz1, View.ld_unit_zero (S := S128x128) hz1, View.ld_unit_zero (S := S1x128) hz1]
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  refine (pay1_apply _ _ _ _ _ p q).trans ?_
  rw [View.read_apply]
  have hemb : ((cfg1.win 5).blk t).view.emb (ix2 p q) = (ix2 ⟨t.val * 5000 + p.val, hr⟩ q : S100000x128.Idx) :=
    funext fun a => Fin.ext (by
      match a with
      | ⟨0, _⟩ => show win1_5.index t 0 * 5000 + 1 * p.val = t.val * 5000 + p.val; rw [e10]; omega
      | ⟨1, _⟩ => show win1_5.index t 1 * 128 + 1 * q.val = q.val; rw [e11]; omega)
  rw [hemb]
  exact entry128 true _ _ _ _ _ (V c main_v41 : X128) (V c main_v23 : X128) (V c main_arg5 : W128) (V c main_arg6 : W128)
    (V c main_v42 : S1x128.Idx → EReal) p q ⟨t.val * 5000 + p.val, hr⟩
    (fun k => read1_0 V c t p k hr) (fun k => read1_1 V c t p k hr) (fun k => read1_2 V c t k q) (fun k => read1_3 V c t k q)
    (read1_4 V c t q)

/-- An index of the output array is in point t's block iff its row is among the block's 5000 and its column among the 128. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- The output array after the call: the layer's function of the arrays the call was entered with (row r is written by
    point r / 5000, and the 20 blocks of 5000 rows cover the 100000 rows). -/
theorem final1 (c : Dev nD) : (dat1 V c).arrAt 5 cfg1.N = layer1 V c :=
  (dat1 V c).arrAt_eq_of_cover 5 (layer1 V c) (fun t _ => flushed1 V c t) fun i => by
    have hi0 : (i 0).val < 100000 := (i 0).isLt
    have hi1 : (i 1).val < 128 := (i 1).isLt
    have hN : grid1.N = 20 := N_1
    have hlt : (i 0).val / 5000 < cfg1.N := by show _ < grid1.N; rw [hN]; omega
    obtain ⟨-, -, -, -, -, -, -, -, -, -, e10, e11, -⟩ := idx1 ⟨(i 0).val / 5000, hlt⟩
    refine ⟨⟨(i 0).val / 5000, hlt⟩, flush1_5 _, ?_⟩
    rw [mem_blk1]
    intro a
    match a with
    | ⟨0, _⟩ =>
      show win1_5.index ⟨(i 0).val / 5000, hlt⟩ 0 * 5000 ≤ (i 0).val ∧ (i 0).val < win1_5.index ⟨(i 0).val / 5000, hlt⟩ 0 * 5000 + 5000
      rw [e10]; show (i 0).val / 5000 * 5000 ≤ (i 0).val ∧ (i 0).val < (i 0).val / 5000 * 5000 + 5000; omega
    | ⟨1, _⟩ =>
      show win1_5.index ⟨(i 0).val / 5000, hlt⟩ 1 * 128 ≤ (i 1).val ∧ (i 1).val < win1_5.index ⟨(i 0).val / 5000, hlt⟩ 1 * 128 + 128
      rw [e11]; omega

/-- The same with the entry arrays named: when the call is entered with means a, features x, weights wl and wr, and the bias
    vector b laid out as a row. -/
theorem layer1_eq (c : Dev nD) (a x : X128) (wl wr : W128) (b : B128)
    (ha : (V c main_v41 : X128) = a) (hx : (V c main_v23 : X128) = x) (hwl : (V c main_arg5 : W128) = wl) (hwr : (V c main_arg6 : W128) = wr)
    (hb : (V c main_v42 : S1x128.Idx → EReal) = shapeCast S1x128 b shapeCasts_S128_S1x128) :
    layer1 V c = dense128 true a x wl wr b := by
  subst ha hx hwl hwr
  show dense128 true _ _ _ _ _ = dense128 true _ _ _ _ _
  refine congrArg (dense128 true _ _ _ _) (funext fun j => ?_)
  rw [hb]
  exact (shapeCast_a_1a_apply b shapeCasts_S128_S1x128 0 (j 0)).trans (congrArg b (eq_ix1 j).symm)

end Cert.KernelIdeal.Sage

end
-- ==== Proof.KRegion2.lean ====
/-
  Call 2 of the dense kernel, as one function of whole arrays.

  The call walks 20 grid points; point t loads rows 5000 t … 5000 t + 4999 of the neighbourhood means and of the node features,
  the two weight matrices and the bias row whole, and writes rows 5000 t … 5000 t + 4999 of the output.  So every entry of the
  output array is written by exactly the point its row falls in, and the array ends at the layer's function of the arrays the
  call was entered with, whatever those are.
-/
import proofs.«172585_j14937896255532_1_alg».proof.Proof.Gen.KernelIdeal.Frame
import proofs.«172585_j14937896255532_1_alg».proof.Proof.KPayload
import proofs.«172585_j14937896255532_1_alg».proof.Proof.DenseSpec

set_option maxRecDepth 16384

noncomputable section

namespace Cert.KernelIdeal.Sage

open Cert.KernelIdeal Cert.KernelIdeal.Gen Idealize.ShloMosaic Idealize.ShloMosaic.TcCoe Idealize.SL.Sem Idealize.ShloMosaic.ValueIdx
open Idealize.ShloMosaic.Pipeline (Dat)
open Cert.Sage

variable (V : (c : Dev nD) → (b : Ref sig .tc) → Buf (Elt Ideal) ((c : Thread nD τ).loc b))

theorem hz2 : (![0, 0] : Fin 2 → Nat) = fun _ => 0 := funext fun a => by fin_cases a <;> rfl

/-- The block index maps, decided once over the 20 grid points: the row-blocked windows (means, features, output) sit at
    block (t, 0), the whole-array windows (the weights and the bias row) at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 20 :=
  (by decide +kernel : ∀ t : Fin grid2.N, _)

/-- The block of neighbourhood means at point t is rows 5000 t … of that array. -/
theorem read2_0 (c : Dev nD) (t : Fin cfg2.N) (p : Fin 5000) (k : Fin 128) (hr : t.val * 5000 + p.val < 100000) :
    iblk2 V c 0 t (ix2 p k) = (V c main_v61 : S100000x128.Idx → EReal) (ix2 ⟨t.val * 5000 + p.val, hr⟩ k) := by
  obtain ⟨e0, e1, -⟩ := idx2 t
  unfold iblk2
  rw [View.read_apply]
  refine congrArg (V c main_v61 : S100000x128.Idx → EReal) (funext fun a => Fin.ext ?_)
  match a with
  | ⟨0, _⟩ => show win2_0.index t 0 * 5000 + 1 * p.val = t.val * 5000 + p.val; rw [e0]; omega
  | ⟨1, _⟩ => show win2_0.index t 1 * 128 + 1 * k.val = k.val; rw [e1]; omega

/-- The block of node features at point t is rows 5000 t … of that array. -/
theorem read2_1 (c : Dev nD) (t : Fin cfg2.N) (p : Fin 5000) (k : Fin 128) (hr : t.val * 5000 + p.val < 100000) :
    iblk2 V c 1 t (ix2 p k) = (V c main_v43 : S100000x128.Idx → EReal) (ix2 ⟨t.val * 5000 + p.val, hr⟩ k) := by
  obtain ⟨-, -, e0, e1, -⟩ := idx2 t
  unfold iblk2
  rw [View.read_apply]
  refine congrArg (V c main_v43 : S100000x128.Idx → EReal) (funext fun a => Fin.ext ?_)
  match a with
  | ⟨0, _⟩ => show win2_1.index t 0 * 5000 + 1 * p.val = t.val * 5000 + p.val; rw [e0]; omega
  | ⟨1, _⟩ => show win2_1.index t 1 * 128 + 1 * k.val = k.val; rw [e1]; omega

/-- The first weight matrix is loaded whole at every point. -/
theorem read2_2 (c : Dev nD) (t : Fin cfg2.N) (k : Fin 128) (q : Fin 128) :
    iblk2 V c 2 t (ix2 k q) = (V c main_arg8 : S128x128.Idx → EReal) (ix2 k q) := by
  obtain ⟨-, -, -, -, e0, e1, -⟩ := idx2 t
  unfold iblk2
  rw [View.read_apply]
  refine congrArg (V c main_arg8 : S128x128.Idx → EReal) (funext fun a => Fin.ext ?_)
  match a with
  | ⟨0, _⟩ => show win2_2.index t 0 * 128 + 1 * k.val = k.val; rw [e0]; omega
  | ⟨1, _⟩ => show win2_2.index t 1 * 128 + 1 * q.val = q.val; rw [e1]; omega

/-- The second weight matrix is loaded whole at every point. -/
theorem read2_3 (c : Dev nD) (t : Fin cfg2.N) (k : Fin 128) (q : Fin 128) :
    iblk2 V c 3 t (ix2 k q) = (V c main_arg9 : S128x128.Idx → EReal) (ix2 k q) := by
  obtain ⟨-, -, -, -, -, -, e0, e1, -⟩ := idx2 t
  unfold iblk2
  rw [View.read_apply]
  refine congrArg (V c main_arg9 : S128x128.Idx → EReal) (funext fun a => Fin.ext ?_)
  match a with
  | ⟨0, _⟩ => show win2_3.index t 0 * 128 + 1 * k.val = k.val; rw [e0]; omega
  | ⟨1, _⟩ => show win2_3.index t 1 * 128 + 1 * q.val = q.val; rw [e1]; omega

/-- The bias row is loaded whole at every point. -/
theorem read2_4 (c : Dev nD) (t : Fin cfg2.N) (q : Fin 128) :
    iblk2 V c 4 t (ix2 (0 : Fin 1) q) = (V c main_v62 : S1x128.Idx → EReal) (ix2 (0 : Fin 1) q) := by
  obtain ⟨-, -, -, -, -, -, -, -, e0, e1, -⟩ := idx2 t
  unfold iblk2
  rw [View.read_apply]
  refine congrArg (V c main_v62 : S1x128.Idx → EReal) (funext fun a => Fin.ext ?_)
  match a with
  | ⟨0, _⟩ => show win2_4.index t 0 * 1 + 1 * 0 = 0; rw [e0]
  | ⟨1, _⟩ => show win2_4.index t 1 * 128 + 1 * q.val = q.val; rw [e1]; omega

/-- The layer's function of the arrays the call is entered with. -/
abbrev layer2 (c : Dev nD) : X128 :=
  dense128 true (V c main_v61 : X128) (V c main_v43 : X128) (V c main_arg8 : W128) (V c main_arg9 : W128)
    (fun j => (V c main_v62 : S1x128.Idx → EReal) (ix2 (0 : Fin 1) (j 0)))

/-- What point t writes back is block t of the layer's function. -/
theorem flushed2 (c : Dev nD) (t : Fin cfg2.N) :
    (dat2 V c).flushed 5 t = ((cfg2.win 5).blk t).view.read (Elt Ideal) (layer2 V c) := by
  obtain ⟨-, -, -, -, -, -, -, -, -, -, e10, e11, ht⟩ := idx2 t
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S1x128) hz2]
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  refine (pay2_apply _ _ _ _ _ p q).trans ?_
  rw [View.read_apply]
  have hemb : ((cfg2.win 5).blk t).view.emb (ix2 p q) = (ix2 ⟨t.val * 5000 + p.val, hr⟩ q : S100000x128.Idx) :=
    funext fun a => Fin.ext (by
      match a with
      | ⟨0, _⟩ => show win2_5.index t 0 * 5000 + 1 * p.val = t.val * 5000 + p.val; rw [e10]; omega
      | ⟨1, _⟩ => show win2_5.index t 1 * 128 + 1 * q.val = q.val; rw [e11]; omega)
  rw [hemb]
  exact entry128 true _ _ _ _ _ (V c main_v61 : X128) (V c main_v43 : X128) (V c main_arg8 : W128) (V c main_arg9 : W128)
    (V c main_v62 : S1x128.Idx → EReal) p q ⟨t.val * 5000 + p.val, hr⟩
    (fun k => read2_0 V c t p k hr) (fun k => read2_1 V c t p k hr) (fun k => read2_2 V c t k q) (fun k => read2_3 V c t k q)
    (read2_4 V c t q)

/-- An index of the output array is in point t's block iff its row is among the block's 5000 and its column among the 128. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v63).slice (win2_5.rect t)).set ↔ _
  rw [View.set_slice_whole, Rect.mem_set_unit]
  exact Iff.rfl

/-- The output array after the call: the layer's function of the arrays the call was entered with (row r is written by
    point r / 5000, and the 20 blocks of 5000 rows cover the 100000 rows). -/
theorem final2 (c : Dev nD) : (dat2 V c).arrAt 5 cfg2.N = layer2 V c :=
  (dat2 V c).arrAt_eq_of_cover 5 (layer2 V c) (fun t _ => flushed2 V c t) fun i => by
    have hi0 : (i 0).val < 100000 := (i 0).isLt
    have hi1 : (i 1).val < 128 := (i 1).isLt
    have hN : grid2.N = 20 := N_2
    have hlt : (i 0).val / 5000 < cfg2.N := by show _ < grid2.N; rw [hN]; omega
    obtain ⟨-, -, -, -, -, -, -, -, -, -, e10, e11, -⟩ := idx2 ⟨(i 0).val / 5000, hlt⟩
    refine ⟨⟨(i 0).val / 5000, hlt⟩, flush2_5 _, ?_⟩
    rw [mem_blk2]
    intro a
    match a with
    | ⟨0, _⟩ =>
      show win2_5.index ⟨(i 0).val / 5000, hlt⟩ 0 * 5000 ≤ (i 0).val ∧ (i 0).val < win2_5.index ⟨(i 0).val / 5000, hlt⟩ 0 * 5000 + 5000
      rw [e10]; show (i 0).val / 5000 * 5000 ≤ (i 0).val ∧ (i 0).val < (i 0).val / 5000 * 5000 + 5000; omega
    | ⟨1, _⟩ =>
      show win2_5.index ⟨(i 0).val / 5000, hlt⟩ 1 * 128 ≤ (i 1).val ∧ (i 1).val < win2_5.index ⟨(i 0).val / 5000, hlt⟩ 1 * 128 + 128
      rw [e11]; omega

/-- The same with the entry arrays named: when the call is entered with means a, features x, weights wl and wr, and the bias
    vector b laid out as a row. -/
theorem layer2_eq (c : Dev nD) (a x : X128) (wl wr : W128) (b : B128)
    (ha : (V c main_v61 : X128) = a) (hx : (V c main_v43 : X128) = x) (hwl : (V c main_arg8 : W128) = wl) (hwr : (V c main_arg9 : W128) = wr)
    (hb : (V c main_v62 : S1x128.Idx → EReal) = shapeCast S1x128 b shapeCasts_S128_S1x128) :
    layer2 V c = dense128 true a x wl wr b := by
  subst ha hx hwl hwr
  show dense128 true _ _ _ _ _ = dense128 true _ _ _ _ _
  refine congrArg (dense128 true _ _ _ _) (funext fun j => ?_)
  rw [hb]
  exact (shapeCast_a_1a_apply b shapeCasts_S128_S1x128 0 (j 0)).trans (congrArg b (eq_ix1 j).symm)

end Cert.KernelIdeal.Sage

end
-- ==== Proof.KRegion3.lean ====
/-
  Call 3 of the dense kernel, as one function of whole arrays.

  The call walks 20 grid points; point t loads rows 5000 t … 5000 t + 4999 of the neighbourhood means and of the node features,
  the two weight matrices and the bias row whole, and writes rows 5000 t … 5000 t + 4999 of the output.  So every entry of the
  output array is written by exactly the point its row falls in, and the array ends at the layer's function of the arrays the
  call was entered with, whatever those are.
-/
import proofs.«172585_j14937896255532_1_alg».proof.Proof.Gen.KernelIdeal.Frame
import proofs.«172585_j14937896255532_1_alg».proof.Proof.KPayload
import proofs.«172585_j14937896255532_1_alg».proof.Proof.DenseSpec

set_option maxRecDepth 16384

noncomputable section

namespace Cert.KernelIdeal.Sage

open Cert.KernelIdeal Cert.KernelIdeal.Gen Idealize.ShloMosaic Idealize.ShloMosaic.TcCoe Idealize.SL.Sem Idealize.ShloMosaic.ValueIdx
open Idealize.ShloMosaic.Pipeline (Dat)
open Cert.Sage

variable (V : (c : Dev nD) → (b : Ref sig .tc) → Buf (Elt Ideal) ((c : Thread nD τ).loc b))

theorem hz3 : (![0, 0] : Fin 2 → Nat) = fun _ => 0 := funext fun a => by fin_cases a <;> rfl

/-- The block index maps, decided once over the 20 grid points: the row-blocked windows (means, features, output) sit at
    block (t, 0), the whole-array windows (the weights and the bias row) at block (0, 0). -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 20 :=
  (by decide +kernel : ∀ t : Fin grid3.N, _)

/-- The block of neighbourhood means at point t is rows 5000 t … of that array. -/
theorem read3_0 (c : Dev nD) (t : Fin cfg3.N) (p : Fin 5000) (k : Fin 128) (hr : t.val * 5000 + p.val < 100000) :
    iblk3 V c 0 t (ix2 p k) = (V c main_v81 : S100000x128.Idx → EReal) (ix2 ⟨t.val * 5000 + p.val, hr⟩ k) := by
  obtain ⟨e0, e1, -⟩ := idx3 t
  unfold iblk3
  rw [View.read_apply]
  refine congrArg (V c main_v81 : S100000x128.Idx → EReal) (funext fun a => Fin.ext ?_)
  match a with
  | ⟨0, _⟩ => show win3_0.index t 0 * 5000 + 1 * p.val = t.val * 5000 + p.val; rw [e0]; omega
  | ⟨1, _⟩ => show win3_0.index t 1 * 128 + 1 * k.val = k.val; rw [e1]; omega

/-- The block of node features at point t is rows 5000 t … of that array. -/
theorem read3_1 (c : Dev nD) (t : Fin cfg3.N) (p : Fin 5000) (k : Fin 128) (hr : t.val * 5000 + p.val < 100000) :
    iblk3 V c 1 t (ix2 p k) = (V c main_v63 : S100000x128.Idx → EReal) (ix2 ⟨t.val * 5000 + p.val, hr⟩ k) := by
  obtain ⟨-, -, e0, e1, -⟩ := idx3 t
  unfold iblk3
  rw [View.read_apply]
  refine congrArg (V c main_v63 : S100000x128.Idx → EReal) (funext fun a => Fin.ext ?_)
  match a with
  | ⟨0, _⟩ => show win3_1.index t 0 * 5000 + 1 * p.val = t.val * 5000 + p.val; rw [e0]; omega
  | ⟨1, _⟩ => show win3_1.index t 1 * 128 + 1 * k.val = k.val; rw [e1]; omega

/-- The first weight matrix is loaded whole at every point. -/
theorem read3_2 (c : Dev nD) (t : Fin cfg3.N) (k : Fin 128) (q : Fin 128) :
    iblk3 V c 2 t (ix2 k q) = (V c main_arg11 : S128x128.Idx → EReal) (ix2 k q) := by
  obtain ⟨-, -, -, -, e0, e1, -⟩ := idx3 t
  unfold iblk3
  rw [View.read_apply]
  refine congrArg (V c main_arg11 : S128x128.Idx → EReal) (funext fun a => Fin.ext ?_)
  match a with
  | ⟨0, _⟩ => show win3_2.index t 0 * 128 + 1 * k.val = k.val; rw [e0]; omega
  | ⟨1, _⟩ => show win3_2.index t 1 * 128 + 1 * q.val = q.val; rw [e1]; omega

/-- The second weight matrix is loaded whole at every point. -/
theorem read3_3 (c : Dev nD) (t : Fin cfg3.N) (k : Fin 128) (q : Fin 128) :
    iblk3 V c 3 t (ix2 k q) = (V c main_arg12 : S128x128.Idx → EReal) (ix2 k q) := by
  obtain ⟨-, -, -, -, -, -, e0, e1, -⟩ := idx3 t
  unfold iblk3
  rw [View.read_apply]
  refine congrArg (V c main_arg12 : S128x128.Idx → EReal) (funext fun a => Fin.ext ?_)
  match a with
  | ⟨0, _⟩ => show win3_3.index t 0 * 128 + 1 * k.val = k.val; rw [e0]; omega
  | ⟨1, _⟩ => show win3_3.index t 1 * 128 + 1 * q.val = q.val; rw [e1]; omega

/-- The bias row is loaded whole at every point. -/
theorem read3_4 (c : Dev nD) (t : Fin cfg3.N) (q : Fin 128) :
    iblk3 V c 4 t (ix2 (0 : Fin 1) q) = (V c main_v82 : S1x128.Idx → EReal) (ix2 (0 : Fin 1) q) := by
  obtain ⟨-, -, -, -, -, -, -, -, e0, e1, -⟩ := idx3 t
  unfold iblk3
  rw [View.read_apply]
  refine congrArg (V c main_v82 : S1x128.Idx → EReal) (funext fun a => Fin.ext ?_)
  match a with
  | ⟨0, _⟩ => show win3_4.index t 0 * 1 + 1 * 0 = 0; rw [e0]
  | ⟨1, _⟩ => show win3_4.index t 1 * 128 + 1 * q.val = q.val; rw [e1]; omega

/-- The layer's function of the arrays the call is entered with. -/
abbrev layer3 (c : Dev nD) : X128 :=
  dense128 false (V c main_v81 : X128) (V c main_v63 : X128) (V c main_arg11 : W128) (V c main_arg12 : W128)
    (fun j => (V c main_v82 : S1x128.Idx → EReal) (ix2 (0 : Fin 1) (j 0)))

/-- What point t writes back is block t of the layer's function. -/
theorem flushed3 (c : Dev nD) (t : Fin cfg3.N) :
    (dat3 V c).flushed 5 t = ((cfg3.win 5).blk t).view.read (Elt Ideal) (layer3 V c) := by
  obtain ⟨-, -, -, -, -, -, -, -, -, -, e10, e11, ht⟩ := idx3 t
  show (cfg3.win 5).cut (grid3.coords t) ((dat3 V c).after 5 t) = _
  rw [after3_5]
  unfold out3_5
  rw [View.canon_unit_zero hz3]
  simp only [View.ld_unit_zero (S := S5000x128) hz3, View.ld_unit_zero (S := S128x128) hz3, View.ld_unit_zero (S := S1x128) hz3]
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  refine (pay3_apply _ _ _ _ _ p q).trans ?_
  rw [View.read_apply]
  have hemb : ((cfg3.win 5).blk t).view.emb (ix2 p q) = (ix2 ⟨t.val * 5000 + p.val, hr⟩ q : S100000x128.Idx) :=
    funext fun a => Fin.ext (by
      match a with
      | ⟨0, _⟩ => show win3_5.index t 0 * 5000 + 1 * p.val = t.val * 5000 + p.val; rw [e10]; omega
      | ⟨1, _⟩ => show win3_5.index t 1 * 128 + 1 * q.val = q.val; rw [e11]; omega)
  rw [hemb]
  exact entry128 false _ _ _ _ _ (V c main_v81 : X128) (V c main_v63 : X128) (V c main_arg11 : W128) (V c main_arg12 : W128)
    (V c main_v82 : S1x128.Idx → EReal) p q ⟨t.val * 5000 + p.val, hr⟩
    (fun k => read3_0 V c t p k hr) (fun k => read3_1 V c t p k hr) (fun k => read3_2 V c t k q) (fun k => read3_3 V c t k q)
    (read3_4 V c t q)

/-- An index of the output array is in point t's block iff its row is among the block's 5000 and its column among the 128. -/
theorem mem_blk3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v83).slice (win3_5.rect t)).set ↔ _
  rw [View.set_slice_whole, Rect.mem_set_unit]
  exact Iff.rfl

/-- The output array after the call: the layer's function of the arrays the call was entered with (row r is written by
    point r / 5000, and the 20 blocks of 5000 rows cover the 100000 rows). -/
theorem final3 (c : Dev nD) : (dat3 V c).arrAt 5 cfg3.N = layer3 V c :=
  (dat3 V c).arrAt_eq_of_cover 5 (layer3 V c) (fun t _ => flushed3 V c t) fun i => by
    have hi0 : (i 0).val < 100000 := (i 0).isLt
    have hi1 : (i 1).val < 128 := (i 1).isLt
    have hN : grid3.N = 20 := N_3
    have hlt : (i 0).val / 5000 < cfg3.N := by show _ < grid3.N; rw [hN]; omega
    obtain ⟨-, -, -, -, -, -, -, -, -, -, e10, e11, -⟩ := idx3 ⟨(i 0).val / 5000, hlt⟩
    refine ⟨⟨(i 0).val / 5000, hlt⟩, flush3_5 _, ?_⟩
    rw [mem_blk3]
    intro a
    match a with
    | ⟨0, _⟩ =>
      show win3_5.index ⟨(i 0).val / 5000, hlt⟩ 0 * 5000 ≤ (i 0).val ∧ (i 0).val < win3_5.index ⟨(i 0).val / 5000, hlt⟩ 0 * 5000 + 5000
      rw [e10]; show (i 0).val / 5000 * 5000 ≤ (i 0).val ∧ (i 0).val < (i 0).val / 5000 * 5000 + 5000; omega
    | ⟨1, _⟩ =>
      show win3_5.index ⟨(i 0).val / 5000, hlt⟩ 1 * 128 ≤ (i 1).val ∧ (i 1).val < win3_5.index ⟨(i 0).val / 5000, hlt⟩ 1 * 128 + 128
      rw [e11]; omega

/-- The same with the entry arrays named: when the call is entered with means a, features x, weights wl and wr, and the bias
    vector b laid out as a row. -/
theorem layer3_eq (c : Dev nD) (a x : X128) (wl wr : W128) (b : B128)
    (ha : (V c main_v81 : X128) = a) (hx : (V c main_v63 : X128) = x) (hwl : (V c main_arg11 : W128) = wl) (hwr : (V c main_arg12 : W128) = wr)
    (hb : (V c main_v82 : S1x128.Idx → EReal) = shapeCast S1x128 b shapeCasts_S128_S1x128) :
    layer3 V c = dense128 false a x wl wr b := by
  subst ha hx hwl hwr
  show dense128 false _ _ _ _ _ = dense128 false _ _ _ _ _
  refine congrArg (dense128 false _ _ _ _) (funext fun j => ?_)
  rw [hb]
  exact (shapeCast_a_1a_apply b shapeCasts_S128_S1x128 0 (j 0)).trans (congrArg b (eq_ix1 j).symm)

end Cert.KernelIdeal.Sage

end
-- ==== Proof.KChain.lean ====
/-
  The kernel program's result, followed through its eight segments.

  The buffer contents at each segment boundary are read one buffer at a time.  A host stretch leaves every buffer it does not
  write as it found it, writes the two rows of the edge list once (before the first call), and before each call writes that
  call's neighbourhood mean and its bias laid out as a row; a call writes its output array with the layer's function of the
  arrays it was entered with (the per-call modules) and leaves every other buffer.  Following the fold, the output of call r
  is layer r of the network applied to the output of call r - 1, and the result is the network of the arguments.
-/
import proofs.«172585_j14937896255532_1_alg».proof.Proof.Gen.KernelIdeal.Frame
import proofs.«172585_j14937896255532_1_alg».proof.Proof.KHost
import proofs.«172585_j14937896255532_1_alg».proof.Proof.KRegion0
import proofs.«172585_j14937896255532_1_alg».proof.Proof.KRegion1
import proofs.«172585_j14937896255532_1_alg».proof.Proof.KRegion2
import proofs.«172585_j14937896255532_1_alg».proof.Proof.KRegion3
import proofs.«172585_j14937896255532_1_alg».proof.Proof.DenseSpec
import Idealize.ShloMosaic.Lib.StableHlo.Run

set_option maxRecDepth 16384

noncomputable section

namespace Cert.KernelIdeal.Sage

open Cert.KernelIdeal Cert.KernelIdeal.Gen Idealize.ShloMosaic Idealize.ShloMosaic.TcCoe Idealize.SL.Sem Idealize.ShloMosaic.StableHlo
open Cert.Sage

variable (m : (ℓ : Loc nD τ sig) → Buf (Elt Ideal) ℓ) (ρ : Dev nD → PrngReg)

/-- The outputs of the four layers, as functions of the argument arrays. -/
def H1 (c : Dev nD) : X128 := dense16 true (mean16 (F := Ideal) (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4))
def H2 (c : Dev nD) : X128 := dense128 true (mean128 (F := Ideal) (H1 m c) (m ((c : Thread nD τ).loc main_arg1))) (H1 m c) (m ((c : Thread nD τ).loc main_arg5)) (m ((c : Thread nD τ).loc main_arg6)) (m ((c : Thread nD τ).loc main_arg7))
def H3 (c : Dev nD) : X128 := dense128 true (mean128 (F := Ideal) (H2 m c) (m ((c : Thread nD τ).loc main_arg1))) (H2 m c) (m ((c : Thread nD τ).loc main_arg8)) (m ((c : Thread nD τ).loc main_arg9)) (m ((c : Thread nD τ).loc main_arg10))
def H4 (c : Dev nD) : X128 := dense128 false (mean128 (F := Ideal) (H3 m c) (m ((c : Thread nD τ).loc main_arg1))) (H3 m c) (m ((c : Thread nD τ).loc main_arg11)) (m ((c : Thread nD τ).loc main_arg12)) (m ((c : Thread nD τ).loc main_arg13))

/-! ## Before call 0: the contents after host stretch 0 -/

theorem L1_src (c : Dev nD) : W1 m ρ c (Proc.devRef .tc main_v1) = srcRow (F := Ideal) (m ((c : Thread nD τ).loc main_arg1)) := by
  show StableHlo.after hostOps0 (W0 m ρ c) (Proc.devRef .tc main_v1) = _
  after_results_simp <;> rfl

theorem L1_dst (c : Dev nD) : W1 m ρ c (Proc.devRef .tc main_v3) = dstRow (F := Ideal) (m ((c : Thread nD τ).loc main_arg1)) := by
  show StableHlo.after hostOps0 (W0 m ρ c) (Proc.devRef .tc main_v3) = _
  after_results_simp <;> rfl

theorem L1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

theorem L1_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl

theorem L1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl

theorem L1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl

theorem L1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl

theorem L1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl

theorem L1_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl

theorem L1_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl

theorem L1_arg10 (c : Dev nD) : W1 m ρ c (Proc.devRef .tc main_arg10) = (m ((c : Thread nD τ).loc main_arg10)) := by
  show StableHlo.after hostOps0 (W0 m ρ c) (Proc.devRef .tc main_arg10) = _
  after_results_simp <;> rfl

theorem L1_arg11 (c : Dev nD) : W1 m ρ c (Proc.devRef .tc main_arg11) = (m ((c : Thread nD τ).loc main_arg11)) := by
  show StableHlo.after hostOps0 (W0 m ρ c) (Proc.devRef .tc main_arg11) = _
  after_results_simp <;> rfl

theorem L1_arg12 (c : Dev nD) : W1 m ρ c (Proc.devRef .tc main_arg12) = (m ((c : Thread nD τ).loc main_arg12)) := by
  show StableHlo.after hostOps0 (W0 m ρ c) (Proc.devRef .tc main_arg12) = _
  after_results_simp <;> rfl

theorem L1_arg13 (c : Dev nD) : W1 m ρ c (Proc.devRef .tc main_arg13) = (m ((c : Thread nD τ).loc main_arg13)) := by
  show StableHlo.after hostOps0 (W0 m ρ c) (Proc.devRef .tc main_arg13) = _
  after_results_simp <;> rfl

theorem L1_bias (c : Dev nD) : W1 m ρ c (Proc.devRef .tc main_v22) = shapeCast S1x128 (m ((c : Thread nD τ).loc main_arg4)) shapeCasts_S128_S1x128 := by
  show StableHlo.after hostOps0 (W0 m ρ c) (Proc.devRef .tc main_v22) = _
  after_results_simp <;> rfl

theorem L1_mean (c : Dev nD) : W1 m ρ c (Proc.devRef .tc main_v21) = mean16 (F := Ideal) (m ((c : Thread nD τ).loc main_arg0)) (m ((c : Thread nD τ).loc main_arg1)) := by
  show StableHlo.after hostOps0 (W0 m ρ c) (Proc.devRef .tc main_v21) = _
  after_results_simp <;> rfl

/-! ## After call 0 -/

theorem L2_out (c : Dev nD) : W2 m ρ c (Proc.devRef .tc main_v23) = H1 m c :=
  (W2_arr m ρ c 5).trans ((final0 (V1 m ρ) c).trans
    (layer0_eq (V1 m ρ) c _ _ _ _ (m ((c : Thread nD τ).loc main_arg4)) (L1_mean m ρ c) (L1_arg0 m ρ c) (L1_arg2 m ρ c) (L1_arg3 m ρ c) (L1_bias m ρ c)))

theorem L2_src (c : Dev nD) : W2 m ρ c (Proc.devRef .tc main_v1) = srcRow (F := Ideal) (m ((c : Thread nD τ).loc main_arg1)) :=
  (W2_of_ne m ρ c main_v1 (by decide)).trans (L1_src m ρ c)

theorem L2_dst (c : Dev nD) : W2 m ρ c (Proc.devRef .tc main_v3) = dstRow (F := Ideal) (m ((c : Thread nD τ).loc main_arg1)) :=
  (W2_of_ne m ρ c main_v3 (by decide)).trans (L1_dst m ρ c)

theorem L2_arg5 (c : Dev nD) : W2 m ρ c (Proc.devRef .tc main_arg5) = (m ((c : Thread nD τ).loc main_arg5)) :=
  (W2_of_ne m ρ c main_arg5 (by decide)).trans (L1_arg5 m ρ c)

theorem L2_arg6 (c : Dev nD) : W2 m ρ c (Proc.devRef .tc main_arg6) = (m ((c : Thread nD τ).loc main_arg6)) :=
  (W2_of_ne m ρ c main_arg6 (by decide)).trans (L1_arg6 m ρ c)

theorem L2_arg7 (c : Dev nD) : W2 m ρ c (Proc.devRef .tc main_arg7) = (m ((c : Thread nD τ).loc main_arg7)) :=
  (W2_of_ne m ρ c main_arg7 (by decide)).trans (L1_arg7 m ρ c)

theorem L2_arg8 (c : Dev nD) : W2 m ρ c (Proc.devRef .tc main_arg8) = (m ((c : Thread nD τ).loc main_arg8)) :=
  (W2_of_ne m ρ c main_arg8 (by decide)).trans (L1_arg8 m ρ c)

theorem L2_arg9 (c : Dev nD) : W2 m ρ c (Proc.devRef .tc main_arg9) = (m ((c : Thread nD τ).loc main_arg9)) :=
  (W2_of_ne m ρ c main_arg9 (by decide)).trans (L1_arg9 m ρ c)

theorem L2_arg10 (c : Dev nD) : W2 m ρ c (Proc.devRef .tc main_arg10) = (m ((c : Thread nD τ).loc main_arg10)) :=
  (W2_of_ne m ρ c main_arg10 (by decide)).trans (L1_arg10 m ρ c)

theorem L2_arg11 (c : Dev nD) : W2 m ρ c (Proc.devRef .tc main_arg11) = (m ((c : Thread nD τ).loc main_arg11)) :=
  (W2_of_ne m ρ c main_arg11 (by decide)).trans (L1_arg11 m ρ c)

theorem L2_arg12 (c : Dev nD) : W2 m ρ c (Proc.devRef .tc main_arg12) = (m ((c : Thread nD τ).loc main_arg12)) :=
  (W2_of_ne m ρ c main_arg12 (by decide)).trans (L1_arg12 m ρ c)

theorem L2_arg13 (c : Dev nD) : W2 m ρ c (Proc.devRef .tc main_arg13) = (m ((c : Thread nD τ).loc main_arg13)) :=
  (W2_of_ne m ρ c main_arg13 (by decide)).trans (L1_arg13 m ρ c)

/-! ## Before call 1: the contents after host stretch 1 -/

theorem L3_src (c : Dev nD) : W3 m ρ c (Proc.devRef .tc main_v1) = srcRow (F := Ideal) (m ((c : Thread nD τ).loc main_arg1)) := by
  have e : W3 m ρ c (Proc.devRef .tc main_v1) = W2 m ρ c (Proc.devRef .tc main_v1) := by
    show StableHlo.after hostOps1 (W2 m ρ c) (Proc.devRef .tc main_v1) = _
    after_results_simp <;> rfl
  rw [e, L2_src]

theorem L3_dst (c : Dev nD) : W3 m ρ c (Proc.devRef .tc main_v3) = dstRow (F := Ideal) (m ((c : Thread nD τ).loc main_arg1)) := by
  have e : W3 m ρ c (Proc.devRef .tc main_v3) = W2 m ρ c (Proc.devRef .tc main_v3) := by
    show StableHlo.after hostOps1 (W2 m ρ c) (Proc.devRef .tc main_v3) = _
    after_results_simp <;> rfl
  rw [e, L2_dst]

theorem L3_arg5 (c : Dev nD) : W3 m ρ c (Proc.devRef .tc main_arg5) = (m ((c : Thread nD τ).loc main_arg5)) := by
  have e : W3 m ρ c (Proc.devRef .tc main_arg5) = W2 m ρ c (Proc.devRef .tc main_arg5) := by
    show StableHlo.after hostOps1 (W2 m ρ c) (Proc.devRef .tc main_arg5) = _
    after_results_simp <;> rfl
  rw [e, L2_arg5]

theorem L3_arg6 (c : Dev nD) : W3 m ρ c (Proc.devRef .tc main_arg6) = (m ((c : Thread nD τ).loc main_arg6)) := by
  have e : W3 m ρ c (Proc.devRef .tc main_arg6) = W2 m ρ c (Proc.devRef .tc main_arg6) := by
    show StableHlo.after hostOps1 (W2 m ρ c) (Proc.devRef .tc main_arg6) = _
    after_results_simp <;> rfl
  rw [e, L2_arg6]

theorem L3_arg8 (c : Dev nD) : W3 m ρ c (Proc.devRef .tc main_arg8) = (m ((c : Thread nD τ).loc main_arg8)) := by
  have e : W3 m ρ c (Proc.devRef .tc main_arg8) = W2 m ρ c (Proc.devRef .tc main_arg8) := by
    show StableHlo.after hostOps1 (W2 m ρ c) (Proc.devRef .tc main_arg8) = _
    after_results_simp <;> rfl
  rw [e, L2_arg8]

theorem L3_arg9 (c : Dev nD) : W3 m ρ c (Proc.devRef .tc main_arg9) = (m ((c : Thread nD τ).loc main_arg9)) := by
  have e : W3 m ρ c (Proc.devRef .tc main_arg9) = W2 m ρ c (Proc.devRef .tc main_arg9) := by
    show StableHlo.after hostOps1 (W2 m ρ c) (Proc.devRef .tc main_arg9) = _
    after_results_simp <;> rfl
  rw [e, L2_arg9]

theorem L3_arg10 (c : Dev nD) : W3 m ρ c (Proc.devRef .tc main_arg10) = (m ((c : Thread nD τ).loc main_arg10)) := by
  have e : W3 m ρ c (Proc.devRef .tc main_arg10) = W2 m ρ c (Proc.devRef .tc main_arg10) := by
    show StableHlo.after hostOps1 (W2 m ρ c) (Proc.devRef .tc main_arg10) = _
    after_results_simp <;> rfl
  rw [e, L2_arg10]

theorem L3_arg11 (c : Dev nD) : W3 m ρ c (Proc.devRef .tc main_arg11) = (m ((c : Thread nD τ).loc main_arg11)) := by
  have e : W3 m ρ c (Proc.devRef .tc main_arg11) = W2 m ρ c (Proc.devRef .tc main_arg11) := by
    show StableHlo.after hostOps1 (W2 m ρ c) (Proc.devRef .tc main_arg11) = _
    after_results_simp <;> rfl
  rw [e, L2_arg11]

theorem L3_arg12 (c : Dev nD) : W3 m ρ c (Proc.devRef .tc main_arg12) = (m ((c : Thread nD τ).loc main_arg12)) := by
  have e : W3 m ρ c (Proc.devRef .tc main_arg12) = W2 m ρ c (Proc.devRef .tc main_arg12) := by
    show StableHlo.after hostOps1 (W2 m ρ c) (Proc.devRef .tc main_arg12) = _
    after_results_simp <;> rfl
  rw [e, L2_arg12]

theorem L3_arg13 (c : Dev nD) : W3 m ρ c (Proc.devRef .tc main_arg13) = (m ((c : Thread nD τ).loc main_arg13)) := by
  have e : W3 m ρ c (Proc.devRef .tc main_arg13) = W2 m ρ c (Proc.devRef .tc main_arg13) := by
    show StableHlo.after hostOps1 (W2 m ρ c) (Proc.devRef .tc main_arg13) = _
    after_results_simp <;> rfl
  rw [e, L2_arg13]

theorem L3_x (c : Dev nD) : W3 m ρ c (Proc.devRef .tc main_v23) = H1 m c := by
  have e : W3 m ρ c (Proc.devRef .tc main_v23) = W2 m ρ c (Proc.devRef .tc main_v23) := by
    show StableHlo.after hostOps1 (W2 m ρ c) (Proc.devRef .tc main_v23) = _
    after_results_simp <;> rfl
  rw [e, L2_out]

theorem L3_bias (c : Dev nD) : W3 m ρ c (Proc.devRef .tc main_v42) = shapeCast S1x128 (m ((c : Thread nD τ).loc main_arg7)) shapeCasts_S128_S1x128 := by
  have e : W3 m ρ c (Proc.devRef .tc main_v42) = shapeCast S1x128 (W2 m ρ c (Proc.devRef .tc main_arg7)) shapeCasts_S128_S1x128 := by
    show StableHlo.after hostOps1 (W2 m ρ c) (Proc.devRef .tc main_v42) = _
    after_results_simp <;> rfl
  rw [e, L2_arg7]

theorem L3_mean (c : Dev nD) : W3 m ρ c (Proc.devRef .tc main_v41) = mean128 (F := Ideal) (H1 m c) (m ((c : Thread nD τ).loc main_arg1)) := by
  have e : W3 m ρ c (Proc.devRef .tc main_v41) = meanRows128 (F := Ideal) (W2 m ρ c (Proc.devRef .tc main_v23)) (W2 m ρ c (Proc.devRef .tc main_v1)) (W2 m ρ c (Proc.devRef .tc main_v3)) := by
    show StableHlo.after hostOps1 (W2 m ρ c) (Proc.devRef .tc main_v41) = _
    after_results_simp <;> rfl
  rw [e, L2_out, L2_src, L2_dst]
  rfl

/-! ## After call 1 -/

theorem L4_out (c : Dev nD) : W4 m ρ c (Proc.devRef .tc main_v43) = H2 m c :=
  (W4_arr m ρ c 5).trans ((final1 (V3 m ρ) c).trans
    (layer1_eq (V3 m ρ) c _ _ _ _ (m ((c : Thread nD τ).loc main_arg7)) (L3_mean m ρ c) (L3_x m ρ c) (L3_arg5 m ρ c) (L3_arg6 m ρ c) (L3_bias m ρ c)))

theorem L4_src (c : Dev nD) : W4 m ρ c (Proc.devRef .tc main_v1) = srcRow (F := Ideal) (m ((c : Thread nD τ).loc main_arg1)) :=
  (W4_of_ne m ρ c main_v1 (by decide)).trans (L3_src m ρ c)

theorem L4_dst (c : Dev nD) : W4 m ρ c (Proc.devRef .tc main_v3) = dstRow (F := Ideal) (m ((c : Thread nD τ).loc main_arg1)) :=
  (W4_of_ne m ρ c main_v3 (by decide)).trans (L3_dst m ρ c)

theorem L4_arg8 (c : Dev nD) : W4 m ρ c (Proc.devRef .tc main_arg8) = (m ((c : Thread nD τ).loc main_arg8)) :=
  (W4_of_ne m ρ c main_arg8 (by decide)).trans (L3_arg8 m ρ c)

theorem L4_arg9 (c : Dev nD) : W4 m ρ c (Proc.devRef .tc main_arg9) = (m ((c : Thread nD τ).loc main_arg9)) :=
  (W4_of_ne m ρ c main_arg9 (by decide)).trans (L3_arg9 m ρ c)

theorem L4_arg10 (c : Dev nD) : W4 m ρ c (Proc.devRef .tc main_arg10) = (m ((c : Thread nD τ).loc main_arg10)) :=
  (W4_of_ne m ρ c main_arg10 (by decide)).trans (L3_arg10 m ρ c)

theorem L4_arg11 (c : Dev nD) : W4 m ρ c (Proc.devRef .tc main_arg11) = (m ((c : Thread nD τ).loc main_arg11)) :=
  (W4_of_ne m ρ c main_arg11 (by decide)).trans (L3_arg11 m ρ c)

theorem L4_arg12 (c : Dev nD) : W4 m ρ c (Proc.devRef .tc main_arg12) = (m ((c : Thread nD τ).loc main_arg12)) :=
  (W4_of_ne m ρ c main_arg12 (by decide)).trans (L3_arg12 m ρ c)

theorem L4_arg13 (c : Dev nD) : W4 m ρ c (Proc.devRef .tc main_arg13) = (m ((c : Thread nD τ).loc main_arg13)) :=
  (W4_of_ne m ρ c main_arg13 (by decide)).trans (L3_arg13 m ρ c)

/-! ## Before call 2: the contents after host stretch 2 -/

theorem L5_src (c : Dev nD) : W5 m ρ c (Proc.devRef .tc main_v1) = srcRow (F := Ideal) (m ((c : Thread nD τ).loc main_arg1)) := by
  have e : W5 m ρ c (Proc.devRef .tc main_v1) = W4 m ρ c (Proc.devRef .tc main_v1) := by
    show StableHlo.after hostOps2 (W4 m ρ c) (Proc.devRef .tc main_v1) = _
    after_results_simp <;> rfl
  rw [e, L4_src]

theorem L5_dst (c : Dev nD) : W5 m ρ c (Proc.devRef .tc main_v3) = dstRow (F := Ideal) (m ((c : Thread nD τ).loc main_arg1)) := by
  have e : W5 m ρ c (Proc.devRef .tc main_v3) = W4 m ρ c (Proc.devRef .tc main_v3) := by
    show StableHlo.after hostOps2 (W4 m ρ c) (Proc.devRef .tc main_v3) = _
    after_results_simp <;> rfl
  rw [e, L4_dst]

theorem L5_arg8 (c : Dev nD) : W5 m ρ c (Proc.devRef .tc main_arg8) = (m ((c : Thread nD τ).loc main_arg8)) := by
  have e : W5 m ρ c (Proc.devRef .tc main_arg8) = W4 m ρ c (Proc.devRef .tc main_arg8) := by
    show StableHlo.after hostOps2 (W4 m ρ c) (Proc.devRef .tc main_arg8) = _
    after_results_simp <;> rfl
  rw [e, L4_arg8]

theorem L5_arg9 (c : Dev nD) : W5 m ρ c (Proc.devRef .tc main_arg9) = (m ((c : Thread nD τ).loc main_arg9)) := by
  have e : W5 m ρ c (Proc.devRef .tc main_arg9) = W4 m ρ c (Proc.devRef .tc main_arg9) := by
    show StableHlo.after hostOps2 (W4 m ρ c) (Proc.devRef .tc main_arg9) = _
    after_results_simp <;> rfl
  rw [e, L4_arg9]

theorem L5_arg11 (c : Dev nD) : W5 m ρ c (Proc.devRef .tc main_arg11) = (m ((c : Thread nD τ).loc main_arg11)) := by
  have e : W5 m ρ c (Proc.devRef .tc main_arg11) = W4 m ρ c (Proc.devRef .tc main_arg11) := by
    show StableHlo.after hostOps2 (W4 m ρ c) (Proc.devRef .tc main_arg11) = _
    after_results_simp <;> rfl
  rw [e, L4_arg11]

theorem L5_arg12 (c : Dev nD) : W5 m ρ c (Proc.devRef .tc main_arg12) = (m ((c : Thread nD τ).loc main_arg12)) := by
  have e : W5 m ρ c (Proc.devRef .tc main_arg12) = W4 m ρ c (Proc.devRef .tc main_arg12) := by
    show StableHlo.after hostOps2 (W4 m ρ c) (Proc.devRef .tc main_arg12) = _
    after_results_simp <;> rfl
  rw [e, L4_arg12]

theorem L5_arg13 (c : Dev nD) : W5 m ρ c (Proc.devRef .tc main_arg13) = (m ((c : Thread nD τ).loc main_arg13)) := by
  have e : W5 m ρ c (Proc.devRef .tc main_arg13) = W4 m ρ c (Proc.devRef .tc main_arg13) := by
    show StableHlo.after hostOps2 (W4 m ρ c) (Proc.devRef .tc main_arg13) = _
    after_results_simp <;> rfl
  rw [e, L4_arg13]

theorem L5_x (c : Dev nD) : W5 m ρ c (Proc.devRef .tc main_v43) = H2 m c := by
  have e : W5 m ρ c (Proc.devRef .tc main_v43) = W4 m ρ c (Proc.devRef .tc main_v43) := by
    show StableHlo.after hostOps2 (W4 m ρ c) (Proc.devRef .tc main_v43) = _
    after_results_simp <;> rfl
  rw [e, L4_out]

theorem L5_bias (c : Dev nD) : W5 m ρ c (Proc.devRef .tc main_v62) = shapeCast S1x128 (m ((c : Thread nD τ).loc main_arg10)) shapeCasts_S128_S1x128 := by
  have e : W5 m ρ c (Proc.devRef .tc main_v62) = shapeCast S1x128 (W4 m ρ c (Proc.devRef .tc main_arg10)) shapeCasts_S128_S1x128 := by
    show StableHlo.after hostOps2 (W4 m ρ c) (Proc.devRef .tc main_v62) = _
    after_results_simp <;> rfl
  rw [e, L4_arg10]

theorem L5_mean (c : Dev nD) : W5 m ρ c (Proc.devRef .tc main_v61) = mean128 (F := Ideal) (H2 m c) (m ((c : Thread nD τ).loc main_arg1)) := by
  have e : W5 m ρ c (Proc.devRef .tc main_v61) = meanRows128 (F := Ideal) (W4 m ρ c (Proc.devRef .tc main_v43)) (W4 m ρ c (Proc.devRef .tc main_v1)) (W4 m ρ c (Proc.devRef .tc main_v3)) := by
    show StableHlo.after hostOps2 (W4 m ρ c) (Proc.devRef .tc main_v61) = _
    after_results_simp <;> rfl
  rw [e, L4_out, L4_src, L4_dst]
  rfl

/-! ## After call 2 -/

theorem L6_out (c : Dev nD) : W6 m ρ c (Proc.devRef .tc main_v63) = H3 m c :=
  (W6_arr m ρ c 5).trans ((final2 (V5 m ρ) c).trans
    (layer2_eq (V5 m ρ) c _ _ _ _ (m ((c : Thread nD τ).loc main_arg10)) (L5_mean m ρ c) (L5_x m ρ c) (L5_arg8 m ρ c) (L5_arg9 m ρ c) (L5_bias m ρ c)))

theorem L6_src (c : Dev nD) : W6 m ρ c (Proc.devRef .tc main_v1) = srcRow (F := Ideal) (m ((c : Thread nD τ).loc main_arg1)) :=
  (W6_of_ne m ρ c main_v1 (by decide)).trans (L5_src m ρ c)

theorem L6_dst (c : Dev nD) : W6 m ρ c (Proc.devRef .tc main_v3) = dstRow (F := Ideal) (m ((c : Thread nD τ).loc main_arg1)) :=
  (W6_of_ne m ρ c main_v3 (by decide)).trans (L5_dst m ρ c)

theorem L6_arg11 (c : Dev nD) : W6 m ρ c (Proc.devRef .tc main_arg11) = (m ((c : Thread nD τ).loc main_arg11)) :=
  (W6_of_ne m ρ c main_arg11 (by decide)).trans (L5_arg11 m ρ c)

theorem L6_arg12 (c : Dev nD) : W6 m ρ c (Proc.devRef .tc main_arg12) = (m ((c : Thread nD τ).loc main_arg12)) :=
  (W6_of_ne m ρ c main_arg12 (by decide)).trans (L5_arg12 m ρ c)

theorem L6_arg13 (c : Dev nD) : W6 m ρ c (Proc.devRef .tc main_arg13) = (m ((c : Thread nD τ).loc main_arg13)) :=
  (W6_of_ne m ρ c main_arg13 (by decide)).trans (L5_arg13 m ρ c)

/-! ## Before call 3: the contents after host stretch 3 -/

theorem L7_src (c : Dev nD) : W7 m ρ c (Proc.devRef .tc main_v1) = srcRow (F := Ideal) (m ((c : Thread nD τ).loc main_arg1)) := by
  have e : W7 m ρ c (Proc.devRef .tc main_v1) = W6 m ρ c (Proc.devRef .tc main_v1) := by
    show StableHlo.after hostOps3 (W6 m ρ c) (Proc.devRef .tc main_v1) = _
    after_results_simp <;> rfl
  rw [e, L6_src]

theorem L7_dst (c : Dev nD) : W7 m ρ c (Proc.devRef .tc main_v3) = dstRow (F := Ideal) (m ((c : Thread nD τ).loc main_arg1)) := by
  have e : W7 m ρ c (Proc.devRef .tc main_v3) = W6 m ρ c (Proc.devRef .tc main_v3) := by
    show StableHlo.after hostOps3 (W6 m ρ c) (Proc.devRef .tc main_v3) = _
    after_results_simp <;> rfl
  rw [e, L6_dst]

theorem L7_arg11 (c : Dev nD) : W7 m ρ c (Proc.devRef .tc main_arg11) = (m ((c : Thread nD τ).loc main_arg11)) := by
  have e : W7 m ρ c (Proc.devRef .tc main_arg11) = W6 m ρ c (Proc.devRef .tc main_arg11) := by
    show StableHlo.after hostOps3 (W6 m ρ c) (Proc.devRef .tc main_arg11) = _
    after_results_simp <;> rfl
  rw [e, L6_arg11]

theorem L7_arg12 (c : Dev nD) : W7 m ρ c (Proc.devRef .tc main_arg12) = (m ((c : Thread nD τ).loc main_arg12)) := by
  have e : W7 m ρ c (Proc.devRef .tc main_arg12) = W6 m ρ c (Proc.devRef .tc main_arg12) := by
    show StableHlo.after hostOps3 (W6 m ρ c) (Proc.devRef .tc main_arg12) = _
    after_results_simp <;> rfl
  rw [e, L6_arg12]

theorem L7_x (c : Dev nD) : W7 m ρ c (Proc.devRef .tc main_v63) = H3 m c := by
  have e : W7 m ρ c (Proc.devRef .tc main_v63) = W6 m ρ c (Proc.devRef .tc main_v63) := by
    show StableHlo.after hostOps3 (W6 m ρ c) (Proc.devRef .tc main_v63) = _
    after_results_simp <;> rfl
  rw [e, L6_out]

theorem L7_bias (c : Dev nD) : W7 m ρ c (Proc.devRef .tc main_v82) = shapeCast S1x128 (m ((c : Thread nD τ).loc main_arg13)) shapeCasts_S128_S1x128 := by
  have e : W7 m ρ c (Proc.devRef .tc main_v82) = shapeCast S1x128 (W6 m ρ c (Proc.devRef .tc main_arg13)) shapeCasts_S128_S1x128 := by
    show StableHlo.after hostOps3 (W6 m ρ c) (Proc.devRef .tc main_v82) = _
    after_results_simp <;> rfl
  rw [e, L6_arg13]

theorem L7_mean (c : Dev nD) : W7 m ρ c (Proc.devRef .tc main_v81) = mean128 (F := Ideal) (H3 m c) (m ((c : Thread nD τ).loc main_arg1)) := by
  have e : W7 m ρ c (Proc.devRef .tc main_v81) = meanRows128 (F := Ideal) (W6 m ρ c (Proc.devRef .tc main_v63)) (W6 m ρ c (Proc.devRef .tc main_v1)) (W6 m ρ c (Proc.devRef .tc main_v3)) := by
    show StableHlo.after hostOps3 (W6 m ρ c) (Proc.devRef .tc main_v81) = _
    after_results_simp <;> rfl
  rw [e, L6_out, L6_src, L6_dst]
  rfl

/-! ## After call 3 -/

theorem L8_out (c : Dev nD) : W8 m ρ c (Proc.devRef .tc main_v83) = H4 m c :=
  (W8_arr m ρ c 5).trans ((final3 (V7 m ρ) c).trans
    (layer3_eq (V7 m ρ) c _ _ _ _ (m ((c : Thread nD τ).loc main_arg13)) (L7_mean m ρ c) (L7_x m ρ c) (L7_arg11 m ρ c) (L7_arg12 m ρ c) (L7_bias m ρ c)))

/-! ## The result -/

/-- The result array after the run is the four-layer network of the argument arrays. -/
theorem result_net (c : Dev nD) :
    W8 m ρ c (Proc.devRef .tc main_v83) = net (mean16 (F := Ideal)) (mean128 (F := Ideal)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  L8_out m ρ c

end Cert.KernelIdeal.Sage

end
-- ==== Proof.RDense.lean ====
/-
  The reference's dense layer, read at an index.

  The reference multiplies whole matrices on the host: (mean · Wl) + (x · Wr) + b, then max(·, 0) after the first three
  layers.  Read at row r and column q this is the layer's function: each product is the sum over the contracted axis, the
  bias row is broadcast down the rows, and the zero of the ReLU is the zero word.
-/
import proofs.«172585_j14937896255532_1_alg».proof.Proof.Gen.ReferenceIdeal
import proofs.«172585_j14937896255532_1_alg».proof.Proof.DenseSpec
import Idealize.ShloMosaic.PureOps.Ideal.Laws
import Idealize.ShloMosaic.Lib.ValueIdx
import Idealize.ShloMosaic.Lib.Pipeline.Value

noncomputable section

namespace Cert.ReferenceIdeal.Sage

open Cert.ReferenceIdeal Cert.ReferenceIdeal.Gen Idealize.ShloMosaic Idealize.ShloMosaic.ValueIdx
open Cert.Sage

theorem h16_lhs0 (i : S100000x128.Idx) (q : dot_S100000x16_S16x128_S100000x128_1_0_0_1_n_n.contr.Idx) : (dot_S100000x16_S16x128_S100000x128_1_0_0_1_n_n.lhsIdx i q 0).val = (i 0).val := by
  unfold DotDims.lhsIdx
  rw [dif_neg (show ¬(0 : Fin S100000x16.rank) ∈ dot_S100000x16_S16x128_S100000x128_1_0_0_1_n_n.lhsBatch by decide), dif_pos (show (0 : Fin S100000x16.rank) ∈ dot_S100000x16_S16x128_S100000x128_1_0_0_1_n_n.lhsNonContracting by decide)]
  rfl
theorem h16_lhs1 (i : S100000x128.Idx) (q : dot_S100000x16_S16x128_S100000x128_1_0_0_1_n_n.contr.Idx) : (dot_S100000x16_S16x128_S100000x128_1_0_0_1_n_n.lhsIdx i q 1).val = (q ⟨0, by decide⟩).val :=
  dot_S100000x16_S16x128_S100000x128_1_0_0_1_n_n.lhsIdx_val_of_single rfl i q
theorem h16_rhs0 (i : S100000x128.Idx) (q : dot_S100000x16_S16x128_S100000x128_1_0_0_1_n_n.contr.Idx) : (dot_S100000x16_S16x128_S100000x128_1_0_0_1_n_n.rhsIdx i q 0).val = (q ⟨0, by decide⟩).val :=
  dot_S100000x16_S16x128_S100000x128_1_0_0_1_n_n.rhsIdx_val_of_single rfl i q
theorem h16_rhs1 (i : S100000x128.Idx) (q : dot_S100000x16_S16x128_S100000x128_1_0_0_1_n_n.contr.Idx) : (dot_S100000x16_S16x128_S100000x128_1_0_0_1_n_n.rhsIdx i q 1).val = (i 1).val := by
  unfold DotDims.rhsIdx
  rw [dif_neg (show ¬(1 : Fin S16x128.rank) ∈ dot_S100000x16_S16x128_S100000x128_1_0_0_1_n_n.rhsBatch by decide), dif_pos (show (1 : Fin S16x128.rank) ∈ dot_S100000x16_S16x128_S100000x128_1_0_0_1_n_n.rhsNonContracting by decide)]
  rfl

/-- The host's matrix product at row r, column q: the sum over the 16 contracted positions of the operands' products. -/
theorem hostDot16 (l : FVec Ideal S100000x16 .f32) (w : FVec Ideal S16x128 .f32) (r : Fin 100000) (q : Fin 128) :
    Host.dotGeneral dot_S100000x16_S16x128_S100000x128_1_0_0_1_n_n none l w (ix2 r q) = ∑ k : Fin 16, l (ix2 r k) * w (ix2 k q) := by
  simp only [Host.dotGeneral]
  rw [Ideal.dotGeneral_apply, ← Equiv.sum_comp (ValueIdx.contrEquiv1 dot_S100000x16_S16x128_S100000x128_1_0_0_1_n_n 16 rfl rfl).symm]
  refine Finset.sum_congr rfl fun k _ => ?_
  have hk := ValueIdx.contrEquiv1_symm_val dot_S100000x16_S16x128_S100000x128_1_0_0_1_n_n 16 rfl rfl k
  have el : dot_S100000x16_S16x128_S100000x128_1_0_0_1_n_n.lhsIdx (ix2 r q) ((ValueIdx.contrEquiv1 dot_S100000x16_S16x128_S100000x128_1_0_0_1_n_n 16 rfl rfl).symm k) = ix2 r k := funext fun a => Fin.ext (by
    match a with
    | ⟨0, _⟩ => exact h16_lhs0 _ _
    | ⟨1, _⟩ => exact (h16_lhs1 _ _).trans hk)
  have er : dot_S100000x16_S16x128_S100000x128_1_0_0_1_n_n.rhsIdx (ix2 r q) ((ValueIdx.contrEquiv1 dot_S100000x16_S16x128_S100000x128_1_0_0_1_n_n 16 rfl rfl).symm k) = ix2 k q := funext fun a => Fin.ext (by
    match a with
    | ⟨0, _⟩ => exact (h16_rhs0 _ _).trans hk
    | ⟨1, _⟩ => exact h16_rhs1 _ _)
  rw [el, er]

theorem h128_lhs0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem h128_lhs1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem h128_rhs0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem h128_rhs1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's matrix product at row r, column q: the sum over the 128 contracted positions of the operands' products. -/
theorem hostDot128 (l : FVec Ideal S100000x128 .f32) (w : FVec Ideal S128x128 .f32) (r : Fin 100000) (q : Fin 128) :
    Host.dotGeneral dot_S100000x128_S128x128_S100000x128_1_0_0_1_n_n none l w (ix2 r q) = ∑ k : Fin 128, l (ix2 r k) * w (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r q) ((ValueIdx.contrEquiv1 dot_S100000x128_S128x128_S100000x128_1_0_0_1_n_n 128 rfl rfl).symm k) = ix2 r k := funext fun a => Fin.ext (by
    match a with
    | ⟨0, _⟩ => exact h128_lhs0 _ _
    | ⟨1, _⟩ => exact (h128_lhs1 _ _).trans hk)
  have er : dot_S100000x128_S128x128_S100000x128_1_0_0_1_n_n.rhsIdx (ix2 r q) ((ValueIdx.contrEquiv1 dot_S100000x128_S128x128_S100000x128_1_0_0_1_n_n 128 rfl rfl).symm k) = ix2 k q := funext fun a => Fin.ext (by
    match a with
    | ⟨0, _⟩ => exact (h128_rhs0 _ _).trans hk
    | ⟨1, _⟩ => exact h128_rhs1 _ _)
  rw [el, er]

/-- The bias vector made a row and broadcast down the 100000 rows: at row r, column q it is the vector's entry q. -/
theorem biasDown (b : FVec Ideal S128 .f32) (r : Fin 100000) (q : Fin 128) :
    broadcastInDim S100000x128 ![0, 1] bcast_S1x128_S100000x128_0_1 (broadcastInDim S1x128 ![1] bcast_S128_S1x128_1 b) (ix2 r q) = b (ix1 q) := by
  refine (broadcastInDim_apply ![0, 1] bcast_S1x128_S100000x128_0_1 _ (ix2 r q) (ix2 (0 : Fin 1) q) fun a => ?_).trans
    (broadcastInDim_apply ![1] bcast_S128_S1x128_1 b (ix2 (0 : Fin 1) q) (ix1 q) fun a => ?_)
  · match a with
    | ⟨0, _⟩ => rfl
    | ⟨1, _⟩ => rfl
  · match a with
    | ⟨0, _⟩ => rfl

/-- The zero the ReLU compares with. -/
theorem zeroSplat (i : S100000x128.Idx) :
    broadcastInDim S100000x128 ![] bcast_S_S100000x128 (constant (F := Ideal) S_ .f32 0x00000000#32) i = 0 := by
  refine (broadcastInDim_apply ![] bcast_S_S100000x128 _ i ix0 fun a => a.elim0).trans ?_
  show Ideal.ofBits .f32 0x00000000#32 = 0
  exact Ideal.ofBits_zero_f32

/-- The reference's layer on 16 features with its ReLU: two host products, their sum, the bias row broadcast down the rows, the maximum with zero. -/
theorem refLayer16_relu (a x : FVec Ideal S100000x16 .f32) (wl wr : FVec Ideal S16x128 .f32) (b : FVec Ideal S128 .f32) :
    maximumf (addf (addf (Host.dotGeneral dot_S100000x16_S16x128_S100000x128_1_0_0_1_n_n none a wl) (Host.dotGeneral dot_S100000x16_S16x128_S100000x128_1_0_0_1_n_n none x wr)) (broadcastInDim S100000x128 ![0, 1] bcast_S1x128_S100000x128_0_1 (broadcastInDim S1x128 ![1] bcast_S128_S1x128_1 b))) (broadcastInDim S100000x128 ![] bcast_S_S100000x128 (constant S_ .f32 0x00000000#32))
      = dense16 true a x wl wr b := by
  funext i
  obtain ⟨r, q, rfl⟩ : ∃ (r : Fin 100000) (q : Fin 128), i = ix2 r q := ⟨i 0, i 1, eq_ix2 i⟩
  show max (_ + _ + _) (broadcastInDim S100000x128 ![] bcast_S_S100000x128 (constant (F := Ideal) S_ .f32 0x00000000#32) (ix2 r q)) = _
  rw [zeroSplat]
  refine congrArg (max · 0) ?_
  refine congrArg₂ (· + ·) (congrArg₂ (· + ·) ?_ ?_) ?_
  · exact hostDot16 _ _ r q
  · exact hostDot16 _ _ r q
  · exact biasDown b r q

/-- The reference's layer on 128 features with its ReLU: two host products, their sum, the bias row broadcast down the rows, the maximum with zero. -/
theorem refLayer128_relu (a x : FVec Ideal S100000x128 .f32) (wl wr : FVec Ideal S128x128 .f32) (b : FVec Ideal S128 .f32) :
    maximumf (addf (addf (Host.dotGeneral dot_S100000x128_S128x128_S100000x128_1_0_0_1_n_n none a wl) (Host.dotGeneral dot_S100000x128_S128x128_S100000x128_1_0_0_1_n_n none x wr)) (broadcastInDim S100000x128 ![0, 1] bcast_S1x128_S100000x128_0_1 (broadcastInDim S1x128 ![1] bcast_S128_S1x128_1 b))) (broadcastInDim S100000x128 ![] bcast_S_S100000x128 (constant S_ .f32 0x00000000#32))
      = dense128 true a x wl wr b := by
  funext i
  obtain ⟨r, q, rfl⟩ : ∃ (r : Fin 100000) (q : Fin 128), i = ix2 r q := ⟨i 0, i 1, eq_ix2 i⟩
  show max (_ + _ + _) (broadcastInDim S100000x128 ![] bcast_S_S100000x128 (constant (F := Ideal) S_ .f32 0x00000000#32) (ix2 r q)) = _
  rw [zeroSplat]
  refine congrArg (max · 0) ?_
  refine congrArg₂ (· + ·) (congrArg₂ (· + ·) ?_ ?_) ?_
  · exact hostDot128 _ _ r q
  · exact hostDot128 _ _ r q
  · exact biasDown b r q

/-- The reference's layer on 128 features, no ReLU: two host products, their sum, the bias row broadcast down the rows. -/
theorem refLayer128 (a x : FVec Ideal S100000x128 .f32) (wl wr : FVec Ideal S128x128 .f32) (b : FVec Ideal S128 .f32) :
    addf (addf (Host.dotGeneral dot_S100000x128_S128x128_S100000x128_1_0_0_1_n_n none a wl) (Host.dotGeneral dot_S100000x128_S128x128_S100000x128_1_0_0_1_n_n none x wr)) (broadcastInDim S100000x128 ![0, 1] bcast_S1x128_S100000x128_0_1 (broadcastInDim S1x128 ![1] bcast_S128_S1x128_1 b))
      = dense128 false a x wl wr b := by
  funext i
  obtain ⟨r, q, rfl⟩ : ∃ (r : Fin 100000) (q : Fin 128), i = ix2 r q := ⟨i 0, i 1, eq_ix2 i⟩
  show _ + _ + _ = _
  refine congrArg₂ (· + ·) (congrArg₂ (· + ·) ?_ ?_) ?_
  · exact hostDot128 _ _ r q
  · exact hostDot128 _ _ r q
  · exact biasDown b r q

end Cert.ReferenceIdeal.Sage

end
-- ==== Proof.RLayers.lean ====
/-
  The reference program, layer by layer.

  Each of the reference's four layers is the layer's function (RDense) of that layer's neighbourhood mean, its input features,
  its two weight matrices and its bias; and the neighbourhood mean is computed by the very operations the kernel's program
  applies between its calls, so it is the same named function.  Composed: the reference's result is the four-layer network.
-/
import proofs.«172585_j14937896255532_1_alg».proof.Proof.Gen.ReferenceIdeal.Read
import proofs.«172585_j14937896255532_1_alg».proof.Proof.RDense
import proofs.«172585_j14937896255532_1_alg».proof.Proof.KHost

set_option maxRecDepth 16384

noncomputable section

namespace Cert.ReferenceIdeal.Sage

open Cert.ReferenceIdeal Cert.ReferenceIdeal.Gen Cert.ReferenceIdeal.Read Idealize.ShloMosaic
open Cert.Sage

/-- The neighbourhood mean of the input features: the same host operations as in the kernel's program. -/
theorem mean_1 (x0 : (⟨S100000x16, .f32⟩ : BufTy).Contents (Elt Ideal)) (x1 : (⟨S2x1600000, .i32⟩ : BufTy).Contents (Elt Ideal)) :
    val_main_v21 (F := Ideal) x0 x1 = Cert.KernelIdeal.Sage.mean16 (F := Ideal) x0 x1 := rfl

/-- The neighbourhood mean of the first layer's output. -/
theorem mean_2 (x0 : (⟨S100000x16, .f32⟩ : BufTy).Contents (Elt Ideal)) (x1 : (⟨S2x1600000, .i32⟩ : BufTy).Contents (Elt Ideal)) (x2 : (⟨S16x128, .f32⟩ : BufTy).Contents (Elt Ideal)) (x3 : (⟨S16x128, .f32⟩ : BufTy).Contents (Elt Ideal)) (x4 : (⟨S128, .f32⟩ : BufTy).Contents (Elt Ideal)) :
    val_main_v46 (F := Ideal) x0 x1 x2 x3 x4 = Cert.KernelIdeal.Sage.mean128 (F := Ideal) (val_main_v28 (F := Ideal) x0 x1 x2 x3 x4) x1 := rfl

/-- The neighbourhood mean of the second layer's output. -/
theorem mean_3 (x0 : (⟨S100000x16, .f32⟩ : BufTy).Contents (Elt Ideal)) (x1 : (⟨S2x1600000, .i32⟩ : BufTy).Contents (Elt Ideal)) (x2 : (⟨S16x128, .f32⟩ : BufTy).Contents (Elt Ideal)) (x3 : (⟨S16x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) :
    val_main_v71 (F := Ideal) x0 x1 x2 x3 x4 x5 x6 x7 = Cert.KernelIdeal.Sage.mean128 (F := Ideal) (val_main_v53 (F := Ideal) x0 x1 x2 x3 x4 x5 x6 x7) x1 := rfl

/-- The neighbourhood mean of the third layer's output. -/
theorem mean_4 (x0 : (⟨S100000x16, .f32⟩ : BufTy).Contents (Elt Ideal)) (x1 : (⟨S2x1600000, .i32⟩ : BufTy).Contents (Elt Ideal)) (x2 : (⟨S16x128, .f32⟩ : BufTy).Contents (Elt Ideal)) (x3 : (⟨S16x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) :
    val_main_v96 (F := Ideal) x0 x1 x2 x3 x4 x5 x6 x7 x8 x9 x10 = Cert.KernelIdeal.Sage.mean128 (F := Ideal) (val_main_v78 (F := Ideal) x0 x1 x2 x3 x4 x5 x6 x7 x8 x9 x10) x1 := rfl

/-- Layer 1 of the reference. -/
theorem layer_1 (x0 : (⟨S100000x16, .f32⟩ : BufTy).Contents (Elt Ideal)) (x1 : (⟨S2x1600000, .i32⟩ : BufTy).Contents (Elt Ideal)) (x2 : (⟨S16x128, .f32⟩ : BufTy).Contents (Elt Ideal)) (x3 : (⟨S16x128, .f32⟩ : BufTy).Contents (Elt Ideal)) (x4 : (⟨S128, .f32⟩ : BufTy).Contents (Elt Ideal)) :
    val_main_v28 (F := Ideal) x0 x1 x2 x3 x4 = dense16 true (val_main_v21 (F := Ideal) x0 x1) x0 x2 x3 x4 :=
  refLayer16_relu _ _ _ _ _

/-- Layer 2 of the reference. -/
theorem layer_2 (x0 : (⟨S100000x16, .f32⟩ : BufTy).Contents (Elt Ideal)) (x1 : (⟨S2x1600000, .i32⟩ : BufTy).Contents (Elt Ideal)) (x2 : (⟨S16x128, .f32⟩ : BufTy).Contents (Elt Ideal)) (x3 : (⟨S16x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) :
    val_main_v53 (F := Ideal) x0 x1 x2 x3 x4 x5 x6 x7 = dense128 true (val_main_v46 (F := Ideal) x0 x1 x2 x3 x4) (val_main_v28 (F := Ideal) x0 x1 x2 x3 x4) x5 x6 x7 :=
  refLayer128_relu _ _ _ _ _

/-- Layer 3 of the reference. -/
theorem layer_3 (x0 : (⟨S100000x16, .f32⟩ : BufTy).Contents (Elt Ideal)) (x1 : (⟨S2x1600000, .i32⟩ : BufTy).Contents (Elt Ideal)) (x2 : (⟨S16x128, .f32⟩ : BufTy).Contents (Elt Ideal)) (x3 : (⟨S16x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) :
    val_main_v78 (F := Ideal) x0 x1 x2 x3 x4 x5 x6 x7 x8 x9 x10 = dense128 true (val_main_v71 (F := Ideal) x0 x1 x2 x3 x4 x5 x6 x7) (val_main_v53 (F := Ideal) x0 x1 x2 x3 x4 x5 x6 x7) x8 x9 x10 :=
  refLayer128_relu _ _ _ _ _

/-- Layer 4 of the reference: no ReLU. -/
theorem layer_4 (x0 : (⟨S100000x16, .f32⟩ : BufTy).Contents (Elt Ideal)) (x1 : (⟨S2x1600000, .i32⟩ : BufTy).Contents (Elt Ideal)) (x2 : (⟨S16x128, .f32⟩ : BufTy).Contents (Elt Ideal)) (x3 : (⟨S16x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x128, .f32⟩ : BufTy).Contents (Elt Ideal)) (x13 : (⟨S128, .f32⟩ : BufTy).Contents (Elt Ideal)) :
    val_main_v102 (F := Ideal) x0 x1 x2 x3 x4 x5 x6 x7 x8 x9 x10 x11 x12 x13 = dense128 false (val_main_v96 (F := Ideal) x0 x1 x2 x3 x4 x5 x6 x7 x8 x9 x10) (val_main_v78 (F := Ideal) x0 x1 x2 x3 x4 x5 x6 x7 x8 x9 x10) x11 x12 x13 :=
  refLayer128 _ _ _ _ _

/-- The reference's result is the four-layer network of its arguments. -/
theorem result_net (x0 : (⟨S100000x16, .f32⟩ : BufTy).Contents (Elt Ideal)) (x1 : (⟨S2x1600000, .i32⟩ : BufTy).Contents (Elt Ideal)) (x2 : (⟨S16x128, .f32⟩ : BufTy).Contents (Elt Ideal)) (x3 : (⟨S16x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x128, .f32⟩ : BufTy).Contents (Elt Ideal)) (x13 : (⟨S128, .f32⟩ : BufTy).Contents (Elt Ideal)) :
    val_main_v102 (F := Ideal) x0 x1 x2 x3 x4 x5 x6 x7 x8 x9 x10 x11 x12 x13
      = net (Cert.KernelIdeal.Sage.mean16 (F := Ideal)) (Cert.KernelIdeal.Sage.mean128 (F := Ideal)) x0 x1 x2 x3 x4 x5 x6 x7 x8 x9 x10 x11 x12 x13 := by
  rw [layer_4, mean_4, layer_3, mean_3, layer_2, mean_2, layer_1, mean_1]
  rfl

end Cert.ReferenceIdeal.Sage

end
-- ==== Proof.lean ====
/-
  The certificate of the stacked mean-aggregation graph convolution: a four-layer network on 100000 nodes and 1600000 edges.

  Each layer takes the neighbourhood mean of its input features (gather the edges' source rows, add them into the destination
  rows, divide by max(count, 1)) and applies  act(mean · Wl + x · Wr + b),  act = max(·, 0) in the first three layers.  The
  kernel's program computes the means with host operations and the dense part with one pipelined call per layer, tiled in
  blocks of 5000 rows, the matrices rounded to bf16 on the way into the products; the reference does everything with whole
  matrices on the host.  On the extended reals the rounding is the identity and a block product is the rows' share of the whole
  product, so both programs compute the same function, entry by entry: no law of arithmetic is used, only the layout.

  The three frames: the kernel's two programs by their generated frame certificates, the reference's by its generated run.
  The idealization rewrote nothing.  The value claim: the kernel program's run with its result named (KRun), the result followed
  through the program's segments (KChain, over the per-call modules KRegion0 … KRegion3, the body's arithmetic KPayload and the
  host stretches' functions KHost), the reference's run read layer by layer (RLayers over RDense), both at the network of
  DenseSpec.
-/
import proofs.«172585_j14937896255532_1_alg».proof.Defs
import proofs.«172585_j14937896255532_1_alg».proof.Proof.Gen.Kernel
import proofs.«172585_j14937896255532_1_alg».proof.Proof.Gen.Kernel.Skeleton
import proofs.«172585_j14937896255532_1_alg».proof.Proof.Gen.Kernel.Launch
import proofs.«172585_j14937896255532_1_alg».proof.Proof.Gen.Kernel.Points
import proofs.«172585_j14937896255532_1_alg».proof.Proof.Gen.Kernel.Frame
import proofs.«172585_j14937896255532_1_alg».proof.Proof.Gen.KernelIdeal
import proofs.«172585_j14937896255532_1_alg».proof.Proof.Gen.KernelIdeal.Skeleton
import proofs.«172585_j14937896255532_1_alg».proof.Proof.Gen.KernelIdeal.Launch
import proofs.«172585_j14937896255532_1_alg».proof.Proof.Gen.KernelIdeal.Points
import proofs.«172585_j14937896255532_1_alg».proof.Proof.Gen.KernelIdeal.Frame
import proofs.«172585_j14937896255532_1_alg».proof.Proof.Gen.ReferenceIdeal
import proofs.«172585_j14937896255532_1_alg».proof.Proof.Gen.Pre_finite_inputs
import proofs.«172585_j14937896255532_1_alg».proof.Proof.Gen.ReferenceIdeal.Run
import proofs.«172585_j14937896255532_1_alg».proof.Proof.Gen.ReferenceIdeal.Read
import proofs.«172585_j14937896255532_1_alg».proof.Proof.KRun
import proofs.«172585_j14937896255532_1_alg».proof.Proof.KChain
import proofs.«172585_j14937896255532_1_alg».proof.Proof.RLayers
import Idealize.ShloMosaic.Adequacy
import Idealize.ShloMosaic.Init

noncomputable section

namespace Cert.Proof

open Idealize.ShloMosaic Idealize.ShloMosaic.TcCoe Idealize.SL.Sem

/-- The kernel's program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the four-layer network of the arguments in their result arrays. -/
theorem algebraic : Cert.algebraic_KernelIdeal_ReferenceIdeal := by
  intro m ρ m' ρ' _ hagree
  refine ⟨fun c => Cert.KernelIdeal.Gen.W8 m ρ c (Proc.devRef .tc Cert.KernelIdeal.main_v83), Cert.KernelIdeal.Sage.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v102_eq, Cert.ReferenceIdeal.Sage.result_net, e0, e1, e2, e3, e4, e5, e6, e7, e8, e9, e10, e11, e12, e13]
  exact (Cert.KernelIdeal.Sage.result_net m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
